-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x128 : Shape := ⟨2, ![96, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S128x16 .f32) (main_arg6 : FVec F S16 .f32) (main_arg7 : FVec F S128x16 .f32) (main_v13 : IVec S_ 1) (main_v16 : IVec S96x128 1) : IVec S_ 1 :=
  let main_c_5 : IVec S_ 1 := constantI S_ 1 1#1
  let main_v17 : IVec S_ 1 := (fun x v => Host.reduce IntOp.andi x v reducesTo_S96x128_S_d0_1 h_S_) main_v16 main_c_5
  let main_v18 : IVec S_ 1 := andi main_v13 main_v17
  let main_v19 : FVec F S128x16 .f32 := Host.absf main_arg5
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S128x16 .f32 := Host.absf main_arg7
  let main_cst_10 : FVec F S_ .f32 := constant S_ .f32 0x7F800000#32
  let main_v30 : FVec F S128x16 .f32 := broadcastInDim S128x16 ![] bcast_S_S128x16 main_cst_10
  let main_v31 : IVec S128x16 1 := cmpf .olt main_v29 main_v30
  let main_c_11 : IVec S_ 1 := constantI S_ 1 1#1
  let main_v32 : IVec S_ 1 := (fun x v => Host.reduce IntOp.andi x v reducesTo_S128x16_S_d0_1 h_S_) main_v31 main_c_11
  let main_v33 : IVec S_ 1 := andi main_v28 main_v32
  main_v33

def fn {F : FTy → Type} [FloatOps F] (main_arg0 : FVec F S50000x96 .f32) (main_arg1 : IVec S2x800000 32) (main_arg2 : FVec F S96x128 .f32) (main_arg3 : FVec F S128 .f32) (main_arg4 : FVec F S96x128 .f32) (main_arg5 : FVec F S128x16 .f32) (main_arg6 : FVec F S16 .f32) (main_arg7 : FVec F S128x16 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x128 .f32 := Host.absf main_arg2
  let main_cst_0 : FVec F S_ .f32 := constant S_ .f32 0x7F800000#32
  let main_v5 : FVec F S96x128 .f32 := broadcastInDim S96x128 ![] bcast_S_S96x128 main_cst_0
  let main_v6 : IVec S96x128 1 := cmpf .olt main_v4 main_v5
  let main_c_1 : IVec S_ 1 := constantI S_ 1 1#1
  let main_v7 : IVec S_ 1 := (fun x v => Host.reduce IntOp.andi x v reducesTo_S96x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S96x128 .f32 := Host.absf main_arg4
  let main_cst_4 : FVec F S_ .f32 := constant S_ .f32 0x7F800000#32
  let main_v15 : FVec F S96x128 .f32 := broadcastInDim S96x128 ![] bcast_S_S96x128 main_cst_4
  let main_v16 : IVec S96x128 1 := cmpf .olt main_v14 main_v15
  fn_part1 (F := F) main_arg5 main_arg6 main_arg7 main_v13 main_v16
-- ==== Kernel.lean ====
abbrev S50000x96 : Shape := ⟨2, ![50000, 96]⟩
abbrev S2x800000 : Shape := ⟨2, ![2, 800000]⟩
abbrev S96x128 : Shape := ⟨2, ![96, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x96 : Shape := ⟨2, ![800000, 96]⟩
abbrev S50000x128 : Shape := ⟨2, ![50000, 128]⟩
abbrev S50000x16 : Shape := ⟨2, ![50000, 16]⟩
abbrev S2000x96 : Shape := ⟨2, ![2000, 96]⟩
abbrev S2000x1 : Shape := ⟨2, ![2000, 1]⟩
abbrev S2000x128 : Shape := ⟨2, ![2000, 128]⟩
abbrev S2000x16 : Shape := ⟨2, ![2000, 16]⟩
abbrev S1x128 : Shape := ⟨2, ![1, 128]⟩
abbrev S800000x16 : Shape := ⟨2, ![800000, 16]⟩
abbrev S1x16 : Shape := ⟨2, ![1, 16]⟩
abbrev S2000 : Shape := ⟨1, ![2000]⟩

abbrev nBuf : Space → Nat
  | .hbm => 54
  | .vmem => 24
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x128, .f32⟩
  | .hbm, ⟨3, _⟩ => ⟨S128, .f32⟩
  | .hbm, ⟨4, _⟩ => ⟨S96x128, .f32⟩
  | .hbm, ⟨5, _⟩ => ⟨S128x16, .f32⟩
  | .hbm, ⟨6, _⟩ => ⟨S16, .f32⟩
  | .hbm, ⟨7, _⟩ => ⟨S128x16, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x96, .f32⟩
  | .hbm, ⟨34, _⟩ => ⟨S_, .f32⟩
  | .hbm, ⟨35, _⟩ => ⟨S50000x96, .f32⟩
  | .hbm, ⟨36, _⟩ => ⟨S800000x1, .i32⟩
  | .hbm, ⟨37, _⟩ => ⟨S50000x96, .f32⟩
  | .hbm, ⟨38, _⟩ => ⟨S50000x128, .f32⟩
  | .hbm, ⟨39, _⟩ => ⟨S50000x16, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x16, .f32⟩
  | .hbm, ⟨49, _⟩ => ⟨S_, .f32⟩
  | .hbm, ⟨50, _⟩ => ⟨S50000x16, .f32⟩
  | .hbm, ⟨51, _⟩ => ⟨S800000x1, .i32⟩
  | .hbm, ⟨52, _⟩ => ⟨S50000x16, .f32⟩
  | .hbm, ⟨53, _⟩ => ⟨S50000x16, .f32⟩
  | .local _ .vmem, ⟨0, _⟩ => ⟨S2000x96, .f32⟩
  | .local _ .vmem, ⟨1, _⟩ => ⟨S2000x96, .f32⟩
  | .local _ .vmem, ⟨2, _⟩ => ⟨S2000x96, .f32⟩
  | .local _ .vmem, ⟨3, _⟩ => ⟨S2000x96, .f32⟩
  | .local _ .vmem, ⟨4, _⟩ => ⟨S2000x1, .f32⟩
  | .local _ .vmem, ⟨5, _⟩ => ⟨S2000x1, .f32⟩
  | .local _ .vmem, ⟨6, _⟩ => ⟨S96x128, .f32⟩
  | .local _ .vmem, ⟨7, _⟩ => ⟨S128, .f32⟩
  | .local _ .vmem, ⟨8, _⟩ => ⟨S96x128, .f32⟩
  | .local _ .vmem, ⟨9, _⟩ => ⟨S128x16, .f32⟩
  | .local _ .vmem, ⟨10, _⟩ => ⟨S2000x128, .f32⟩
  | .local _ .vmem, ⟨11, _⟩ => ⟨S2000x128, .f32⟩
  | .local _ .vmem, ⟨12, _⟩ => ⟨S2000x16, .f32⟩
  | .local _ .vmem, ⟨13, _⟩ => ⟨S2000x16, .f32⟩
  | .local _ .vmem, ⟨14, _⟩ => ⟨S2000x16, .f32⟩
  | .local _ .vmem, ⟨15, _⟩ => ⟨S2000x16, .f32⟩
  | .local _ .vmem, ⟨16, _⟩ => ⟨S2000x128, .f32⟩
  | .local _ .vmem, ⟨17, _⟩ => ⟨S2000x128, .f32⟩
  | .local _ .vmem, ⟨18, _⟩ => ⟨S2000x1, .f32⟩
  | .local _ .vmem, ⟨19, _⟩ => ⟨S2000x1, .f32⟩
  | .local _ .vmem, ⟨20, _⟩ => ⟨S16, .f32⟩
  | .local _ .vmem, ⟨21, _⟩ => ⟨S128x16, .f32⟩
  | .local _ .vmem, ⟨22, _⟩ => ⟨S2000x16, .f32⟩
  | .local _ .vmem, ⟨23, _⟩ => ⟨S2000x16, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x96 : S_.BroadcastsInDim S50000x96 (![] : Fin 0 → Fin S50000x96.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x96_S2000x96_0_0 : ∀ a, (![0, 0] : Fin 2 → Nat) a + S2000x96.size a ≤ S2000x96.size a
  h_S2000x96 : 0 < S2000x96.numel
  shapeCasts_S2000x96_S2000x96 : S2000x96.ShapeCasts S2000x96
  broadcasts_S2000x1_S2000x96 : S2000x1.Broadcasts S2000x96
  bitsLt_bf16_f32 : FTy.bits .bf16 < FTy.bits .f32
  inb_S96x128_S96x128_0_0 : ∀ a, (![0, 0] : Fin 2 → Nat) a + S96x128.size a ≤ S96x128.size a
  h_S96x128 : 0 < S96x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  inb_S128x16_S128x16_0_0 : ∀ a, (![0, 0] : Fin 2 → Nat) a + S128x16.size a ≤ S128x16.size a
  h_S128x16 : 0 < S128x16.numel
  inb_S2000x16_S2000x16_0_0 : ∀ a, (![0, 0] : Fin 2 → Nat) a + S2000x16.size a ≤ S2000x16.size a
  h_S2000x16 : 0 < S2000x16.numel
  bcast_S_S50000x16 : S_.BroadcastsInDim S50000x16 (![] : Fin 0 → Fin S50000x16.rank)
  shapeCasts_S2000x16_S2000x16 : S2000x16.ShapeCasts S2000x16
  broadcasts_S2000x1_S2000x16 : S2000x1.Broadcasts S2000x16
  shapeCasts_S2000x128_S2000x128 : S2000x128.ShapeCasts S2000x128
  inb_S16_S16_0 : ∀ a, (![0] : Fin 1 → Nat) a + S16.size a ≤ S16.size a
  h_S16 : 0 < S16.numel
  shapeCasts_S16_S1x16 : S16.ShapeCasts S1x16
  broadcasts_S1x16_S2000x16 : S1x16.Broadcasts S2000x16
  reduces_S2000x16_S2000 : S2000x16.Reduces [1] S2000
  shapeCasts_S2000_S2000x1 : S2000.ShapeCasts S2000x1
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S96x128_S2000x128_1_0_0_1_n_n_wf : DotDims.WF S2000x96 S96x128 S2000x128 [1] [0] [0] [1] [] []
  dot_S2000x128_S128x16_S2000x16_1_0_0_1_n_n_wf : DotDims.WF S2000x128 S128x16 S2000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x96.size a ≤ S50000x96.size a
  hwx0_1 : ∀ i : grid0.Coords, EltTy.bits .f32 = 32 ∨ (Rect.block (s := S50000x96) S2000x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x128.size a ≤ S96x128.size a
  hwx0_3 : ∀ i : grid0.Coords, EltTy.bits .f32 = 32 ∨ (Rect.block (s := S96x128) S96x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S96x128.size a ≤ S96x128.size a
  hwx0_5 : ∀ i : grid0.Coords, EltTy.bits .f32 = 32 ∨ (Rect.block (s := S96x128) S96x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x16.size a ≤ S128x16.size a
  hwx0_6 : ∀ i : grid0.Coords, EltTy.bits .f32 = 32 ∨ (Rect.block (s := S128x16) S128x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x16.size a ≤ S50000x16.size a
  hwx0_8 : ∀ i : grid0.Coords, EltTy.bits .f32 = 32 ∨ (Rect.block (s := S50000x16) S2000x16.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S50000x16.size a
  hwx1_0 : ∀ i : grid1.Coords, EltTy.bits .f32 = 32 ∨ (Rect.block (s := S50000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16.size a ≤ S16.size a
  hwx1_3 : ∀ i : grid1.Coords, EltTy.bits .f32 = 32 ∨ (Rect.block (s := S16) S16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x16.size a ≤ S128x16.size a
  hwx1_4 : ∀ i : grid1.Coords, EltTy.bits .f32 = 32 ∨ (Rect.block (s := S128x16) S128x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x16.size a ≤ S50000x16.size a
  hwx1_5 : ∀ i : grid1.Coords, EltTy.bits .f32 = 32 ∨ (Rect.block (s := S50000x16) S2000x16.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S96x128_S2000x128_1_0_0_1_n_n : DotDims S2000x96 S96x128 S2000x128 where
  lhsContracting := [1]
  rhsContracting := [0]
  lhsNonContracting := [0]
  rhsNonContracting := [1]
  lhsBatch := []
  rhsBatch := []
  wf := dot_S2000x96_S96x128_S2000x128_1_0_0_1_n_n_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf

abbrev win0_0 : Pipeline.Window sig grid0 :=
  Pipeline.Window.ofSpec (Memref.whole main_v22) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S96x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S96x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23_0) S2000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v23_1) S2000x16.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v33) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S2000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x128 : Shape := ⟨2, ![96, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S50000x16 : Shape := ⟨2, ![50000, 16]⟩
abbrev S1x16 : Shape := ⟨2, ![1, 16]⟩

abbrev nBuf : Space → Nat
  | .hbm => 91
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x128, .f32⟩
  | .hbm, ⟨3, _⟩ => ⟨S128, .f32⟩
  | .hbm, ⟨4, _⟩ => ⟨S96x128, .f32⟩
  | .hbm, ⟨5, _⟩ => ⟨S128x16, .f32⟩
  | .hbm, ⟨6, _⟩ => ⟨S16, .f32⟩
  | .hbm, ⟨7, _⟩ => ⟨S128x16, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x96, .f32⟩
  | .hbm, ⟨21, _⟩ => ⟨S_, .f32⟩
  | .hbm, ⟨22, _⟩ => ⟨S50000x96, .f32⟩
  | .hbm, ⟨23, _⟩ => ⟨S800000x1, .i32⟩
  | .hbm, ⟨24, _⟩ => ⟨S50000x96, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x96, .f32⟩
  | .hbm, ⟨36, _⟩ => ⟨S50000x96, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x16, .f32⟩
  | .hbm, ⟨72, _⟩ => ⟨S1x16, .f32⟩
  | .hbm, ⟨73, _⟩ => ⟨S50000x16, .f32⟩
  | .hbm, ⟨74, _⟩ => ⟨S50000x16, .f32⟩
  | .hbm, ⟨75, _⟩ => ⟨S50000x16, .f32⟩
  | .hbm, ⟨76, _⟩ => ⟨S50000x16, .f32⟩
  | .hbm, ⟨77, _⟩ => ⟨S_, .f32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S50000x1, .f32⟩
  | .hbm, ⟨83, _⟩ => ⟨S50000x16, .f32⟩
  | .hbm, ⟨84, _⟩ => ⟨S50000x16, .f32⟩
  | .hbm, ⟨85, _⟩ => ⟨S50000x16, .f32⟩
  | .hbm, ⟨86, _⟩ => ⟨S_, .f32⟩
  | .hbm, ⟨87, _⟩ => ⟨S50000, .f32⟩
  | .hbm, ⟨88, _⟩ => ⟨S50000x1, .f32⟩
  | .hbm, ⟨89, _⟩ => ⟨S50000x16, .f32⟩
  | .hbm, ⟨90, _⟩ => ⟨S50000x16, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S50000x1_S50000x16_0_1 : S50000x1.BroadcastsInDim S50000x16 (![0, 1] : Fin 2 → Fin S50000x16.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S50000x96_S96x128_S50000x128_1_0_0_1_n_n_wf : DotDims.WF S50000x96 S96x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x16_S50000x16_1_0_0_1_n_n_wf : DotDims.WF S50000x128 S128x16 S50000x16 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x96_S96x128_S50000x128_1_0_0_1_n_n : DotDims S50000x96 S96x128 S50000x128 where
  lhsContracting := [1]
  rhsContracting := [0]
  lhsNonContracting := [0]
  rhsNonContracting := [1]
  lhsBatch := []
  rhsBatch := []
  wf := dot_S50000x96_S96x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.KRun.lean ====
/-
  The idealized kernel's run with its result named: every weakly fair execution of @main terminates, nothing faults,
  the arguments end as launched, and the result array ends at the contents the second region's write-backs leave
  (the fold of the host stretches and the two regions from the launch memory, read at the result's buffer).
-/
import proofs.«141838_j8426725835327_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its four segments, the last thread state read against the final state: the result's buffer
    and each argument's buffer at the boundary contents after the second region. -/
theorem run_result : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.KRun

end
-- ==== Proof.LibRowGatherScatter.lean ====
/-
  A row gather, a vector gather and a row scatter-add, read at an index, and the law that lets a
  per-edge factor D[src] * D[dst] of a segment sum be split into a scaling of the gathered rows
  by D[src] before the sum and a scaling of each target row by D[dst] after it.

  h[idx] of a matrix h : [N, Fw] at idx : [E] is a gather with start indices [E, 1]: result row e is the
  operand's row at the start index read signed and clamped into [0, N - 1]. v[idx] of a vector is the same with no
  window axis. A segment sum of updates [E, Fw] into [N, Fw] is a scatter with an add body: update row e lands on
  the row its scatter index names when that is in range (read signed, not clamped), and is dropped otherwise.
-/
import Idealize.ShloMosaic.PureOps.Ideal
import Idealize.ShloMosaic.Lib.ValueIdx
import Mathlib.Data.EReal.Operations

noncomputable section

open scoped BigOperators

namespace Idealize.ShloMosaic.RowTake

open Idealize.ShloMosaic Idealize.ShloMosaic.ValueIdx

/-- dimension numbers of  h[idx]  for h:[N,Fw], idx:[E,1] -/
abbrev rowGather (N E Fw : Nat) (wf : GatherDims.WF ⟨2, ![N, Fw]⟩ ⟨2, ![E, 1]⟩ ⟨2, ![E, Fw]⟩ [1] [0] [] [0] [] 1 ![1, Fw]) :
    GatherDims ⟨2, ![N, Fw]⟩ ⟨2, ![E, 1]⟩ ⟨2, ![E, Fw]⟩ where
  offsetDims := [1]
  collapsedSliceDims := [0]
  operandBatchingDims := []
  startIndicesBatchingDims := []
  startIndexMap := [0]
  indexVectorDim := 1
  sliceSizes := ![1, Fw]
  wf := wf

/-- dimension numbers of  v[idx]  for v:[N], idx:[E,1] -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- dimension numbers of  segment_sum  of updates [E,Fw] into [N,Fw] at scatter indices [E,1] -/
abbrev rowScatter (N E Fw : Nat) (wf : ScatterDims.WF ⟨2, ![N, Fw]⟩ ⟨2, ![E, 1]⟩ ⟨2, ![E, Fw]⟩ [1] [0] [0] 1) :
    ScatterDims ⟨2, ![N, Fw]⟩ ⟨2, ![E, 1]⟩ ⟨2, ![E, Fw]⟩ where
  updateWindowDims := [1]
  insertedWindowDims := [0]
  scatterDimsToOperandDims := [0]
  indexVectorDim := 1
  wf := wf

/-- the clamped row a start index selects -/
def clampRow {N E w : Nat} (hN : 0 < N) (idx : IVec ⟨2, ![E, 1]⟩ w) (e : Fin E) : Fin N :=
  ⟨min (idx (ix2 e (0 : Fin 1))).toInt.toNat (N - 1), by omega⟩

/-! ## The row gather at an index -/

/-- The start-indices index a row gather's result index (e, f) reads its one start index at is [e, 0]. -/
theorem rowGather_siIdx {N E Fw : Nat} (wf) (e : Fin E) (f : Fin Fw) (h) :
    (rowGather N E Fw wf).siIdx (ix2 e f) ⟨List.idxOf (0 : Fin 2) (rowGather N E Fw wf).startIndexMap, h⟩
      = ix2 e (0 : Fin 1) := by
  funext b; refine Fin.ext ?_
  match b with
  | ⟨0, _⟩ => rfl
  | ⟨1, _⟩ => rfl

/-- On the row axis a row gather reads the clamped start index. -/
theorem rowGather_operandIdx0 {N E Fw w : Nat} (hN : 0 < N) (wf) (idx : IVec ⟨2, ![E, 1]⟩ w) (e : Fin E) (f : Fin Fw) :
    ((rowGather N E Fw wf).operandIdx (ix2 e f) idx (0 : Fin 2)).val = (clampRow hN idx e).val := by
  show (rowGather N E Fw wf).start (ix2 e f) idx (0 : Fin 2) + (rowGather N E Fw wf).batchCoord (ix2 e f) (0 : Fin 2)
      + (rowGather N E Fw wf).offCoord (ix2 e f) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N E Fw wf).startIndexMap from List.mem_singleton.mpr rfl)]
  rw [rowGather_siIdx]
  rfl

/-- On the column axis a row gather reads the result's column. -/
theorem rowGather_operandIdx1 {N E Fw w : Nat} (wf) (idx : IVec ⟨2, ![E, 1]⟩ w) (e : Fin E) (f : Fin Fw) :
    ((rowGather N E Fw wf).operandIdx (ix2 e f) idx (1 : Fin 2)).val = f.val := by
  show (rowGather N E Fw wf).start (ix2 e f) idx (1 : Fin 2) + (rowGather N E Fw wf).batchCoord (ix2 e f) (1 : Fin 2)
      + (rowGather N E Fw wf).offCoord (ix2 e f) (1 : Fin 2) = _
  rw [GatherDims.batchCoord_eq_zero _ _ _ List.not_mem_nil]
  unfold GatherDims.start
  rw [dif_neg (show (1 : Fin 2) ∉ (rowGather N E Fw wf).startIndexMap from (by decide : (1 : Fin 2) ∉ ([0] : List (Fin 2))))]
  simp only [Nat.add_zero, Nat.zero_add]
  unfold GatherDims.offCoord
  rw [dif_pos (show (1 : Fin 2) ∈ (rowGather N E Fw wf).sKept from
    (GatherDims.mem_sKept _ _).mpr ⟨(by decide : (1 : Fin 2) ∉ ([0] : List (Fin 2))), List.not_mem_nil⟩)]
  rfl

theorem rowGather_apply {α : Type} {N E Fw w : Nat} (hN : 0 < N) (wf) (x : (⟨2, ![N, Fw]⟩ : Shape).Idx → α)
    (idx : IVec ⟨2, ![E, 1]⟩ w) (e : Fin E) (f : Fin Fw) :
    Host.gather (rowGather N E Fw wf) x idx (ix2 e f) = x (ix2 (clampRow hN idx e) f) := by
  unfold Host.gather
  congr 1
  funext a
  refine Fin.ext ?_
  match a with
  | ⟨0, _⟩ => exact rowGather_operandIdx0 hN wf idx e f
  | ⟨1, _⟩ => exact rowGather_operandIdx1 wf idx e f

/-! ## The vector gather at an index -/

/-- The start-indices index a vector gather's result index (e) reads its one start index at is [e, 0]. -/
theorem vecGather_siIdx {N E : Nat} (wf) (e : Fin E) (h) :
    (vecGather N E wf).siIdx (ix1 e) ⟨List.idxOf (0 : Fin 1) (vecGather N E wf).startIndexMap, h⟩
      = ix2 e (0 : Fin 1) := by
  funext b; refine Fin.ext ?_
  match b with
  | ⟨0, _⟩ => rfl
  | ⟨1, _⟩ => rfl

theorem vecGather_apply {α : Type} {N E w : Nat} (hN : 0 < N) (wf) (x : (⟨1, ![N]⟩ : Shape).Idx → α)
    (idx : IVec ⟨2, ![E, 1]⟩ w) (e : Fin E) :
    Host.gather (vecGather N E wf) x idx (ix1 e) = x (ix1 (clampRow hN idx e)) := by
  unfold Host.gather
  congr 1
  funext a
  obtain rfl : a = 0 := Subsingleton.elim _ _
  refine Fin.ext ?_
  show (vecGather N E wf).start (ix1 e) idx 0 + (vecGather N E wf).batchCoord (ix1 e) 0
      + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  rw [vecGather_siIdx]
  rfl

/-! ## The row scatter: where an update lands -/

/-- The scatter-indices index a row scatter's update index (e, f) reads its one scatter index at is [e, 0]. -/
theorem rowScatter_siIdx {N E Fw : Nat} (wf) (e : Fin E) (f : Fin Fw) (h) :
    (rowScatter N E Fw wf).siIdx (ix2 e f) ⟨List.idxOf (0 : Fin 2) (rowScatter N E Fw wf).scatterDimsToOperandDims, h⟩
      = ix2 e (0 : Fin 1) := by
  funext b; refine Fin.ext ?_
  match b with
  | ⟨0, _⟩ => rfl
  | ⟨1, _⟩ => rfl

/-- On the row axis the window starts at the scatter index, read signed. -/
theorem rowScatter_start0 {N E Fw w : Nat} (wf) (idx : IVec ⟨2, ![E, 1]⟩ w) (e : Fin E) (f : Fin Fw) :
    (rowScatter N E Fw wf).start (ix2 e f) idx (0 : Fin 2) = (idx (ix2 e (0 : Fin 1))).toInt := by
  unfold ScatterDims.start
  rw [dif_pos (show (0 : Fin 2) ∈ (rowScatter N E Fw wf).scatterDimsToOperandDims from List.mem_singleton.mpr rfl)]
  rw [rowScatter_siIdx]

/-- On the column axis the window starts at 0. -/
theorem rowScatter_start1 {N E Fw w : Nat} (wf) (idx : IVec ⟨2, ![E, 1]⟩ w) (e : Fin E) (f : Fin Fw) :
    (rowScatter N E Fw wf).start (ix2 e f) idx (1 : Fin 2) = 0 := by
  unfold ScatterDims.start
  rw [dif_neg (show (1 : Fin 2) ∉ (rowScatter N E Fw wf).scatterDimsToOperandDims from
    (by decide : (1 : Fin 2) ∉ ([0] : List (Fin 2))))]

/-- The row axis is inserted: its window coordinate is 0. -/
theorem rowScatter_window0 {N E Fw : Nat} (wf) (e : Fin E) (f : Fin Fw) :
    (rowScatter N E Fw wf).window (ix2 e f) (0 : Fin 2) = 0 := by
  unfold ScatterDims.window
  rw [dif_neg]
  intro h
  have h' : (0 : Fin 2) ∉ ([0] : List (Fin 2)) := by
    simpa [ScatterDims.sKept, Shape.kept, List.mem_filter, List.mem_finRange] using h
  exact h' (List.mem_singleton.mpr rfl)

/-- The column axis is the window axis: its window coordinate is the update's column. -/
theorem rowScatter_window1 {N E Fw : Nat} (wf) (e : Fin E) (f : Fin Fw) :
    (rowScatter N E Fw wf).window (ix2 e f) (1 : Fin 2) = f.val := by
  unfold ScatterDims.window
  rw [dif_pos (show (1 : Fin 2) ∈ (rowScatter N E Fw wf).sKept by
    simp [ScatterDims.sKept, Shape.kept, List.mem_filter, List.mem_finRange])]
  rfl

/-- an update lands on (n,f) exactly when its scatter index, read signed, is n and its column is f -/
theorem rowScatter_resultIdx_eq_some {N E Fw w : Nat} (wf) (idx : IVec ⟨2, ![E, 1]⟩ w) (e : Fin E) (f' : Fin Fw)
    (n : Fin N) (f : Fin Fw) :
    (rowScatter N E Fw wf).resultIdx? (ix2 e f') idx = some (ix2 n f)
      ↔ ((idx (ix2 e (0 : Fin 1))).toInt = (n.val : Int) ∧ f' = f) := by
  have hs0 : (⟨2, ![N, Fw]⟩ : Shape).size (0 : Fin 2) = N := rfl
  have hs1 : (⟨2, ![N, Fw]⟩ : Shape).size (1 : Fin 2) = Fw := rfl
  have hn := n.isLt
  have hf := f.isLt
  have hf' := f'.isLt
  constructor
  · intro h
    unfold ScatterDims.resultIdx? at h
    split at h
    · rename_i hin
      have hg := Option.some.inj h
      have h0 : ((rowScatter N E Fw wf).start (ix2 e f') idx (0 : Fin 2)
          + ((rowScatter N E Fw wf).window (ix2 e f') (0 : Fin 2) : Int)).toNat = n.val :=
        congrArg (fun g => (g (0 : Fin 2)).val) hg
      have h1 : ((rowScatter N E Fw wf).start (ix2 e f') idx (1 : Fin 2)
          + ((rowScatter N E Fw wf).window (ix2 e f') (1 : Fin 2) : Int)).toNat = f.val :=
        congrArg (fun g => (g (1 : Fin 2)).val) hg
      have hin0 := (hin (0 : Fin 2)).1
      rw [rowScatter_start0, rowScatter_window0] at h0 hin0
      rw [rowScatter_start1, rowScatter_window1] at h1
      exact ⟨by omega, Fin.ext (by omega)⟩
    · exact absurd h (by simp)
  · rintro ⟨h0, rfl⟩
    unfold ScatterDims.resultIdx?
    have hin : ∀ a, 0 ≤ (rowScatter N E Fw wf).start (ix2 e f') idx a + ((rowScatter N E Fw wf).window (ix2 e f') a : Int)
        ∧ (rowScatter N E Fw wf).start (ix2 e f') idx a + ((rowScatter N E Fw wf).window (ix2 e f') a : Int)
          < ((⟨2, ![N, Fw]⟩ : Shape).size a : Int) := by
      intro a
      match a with
      | ⟨0, _⟩ =>
        show 0 ≤ (rowScatter N E Fw wf).start (ix2 e f') idx (0 : Fin 2) + ((rowScatter N E Fw wf).window (ix2 e f') (0 : Fin 2) : Int)
          ∧ (rowScatter N E Fw wf).start (ix2 e f') idx (0 : Fin 2) + ((rowScatter N E Fw wf).window (ix2 e f') (0 : Fin 2) : Int)
            < ((⟨2, ![N, Fw]⟩ : Shape).size (0 : Fin 2) : Int)
        rw [rowScatter_start0, rowScatter_window0, hs0]
        omega
      | ⟨1, _⟩ =>
        show 0 ≤ (rowScatter N E Fw wf).start (ix2 e f') idx (1 : Fin 2) + ((rowScatter N E Fw wf).window (ix2 e f') (1 : Fin 2) : Int)
          ∧ (rowScatter N E Fw wf).start (ix2 e f') idx (1 : Fin 2) + ((rowScatter N E Fw wf).window (ix2 e f') (1 : Fin 2) : Int)
            < ((⟨2, ![N, Fw]⟩ : Shape).size (1 : Fin 2) : Int)
        rw [rowScatter_start1, rowScatter_window1, hs1]
        omega
    rw [dif_pos hin]
    congr 1
    funext a
    refine Fin.ext ?_
    match a with
    | ⟨0, _⟩ =>
      show ((rowScatter N E Fw wf).start (ix2 e f') idx (0 : Fin 2)
          + ((rowScatter N E Fw wf).window (ix2 e f') (0 : Fin 2) : Int)).toNat = n.val
      rw [rowScatter_start0, rowScatter_window0]
      omega
    | ⟨1, _⟩ =>
      show ((rowScatter N E Fw wf).start (ix2 e f') idx (1 : Fin 2)
          + ((rowScatter N E Fw wf).window (ix2 e f') (1 : Fin 2) : Int)).toNat = f'.val
      rw [rowScatter_start1, rowScatter_window1]
      omega

/-! ## The factoring law -/

/-- Multiplication by a nonnegative real distributes over a finite sum of extended reals (the extended reals are not
    a semiring: a product distributes over a sum when the factor is a nonnegative real). -/
theorem coe_mul_finset_sum {ι : Type*} (r : ℝ) (hr : 0 ≤ r) (s : Finset ι) (g : ι → EReal) :
    (r : EReal) * ∑ i ∈ s, g i = ∑ i ∈ s, (r : EReal) * g i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- A start index that reads, signed, as the in-range row n clamps to n. -/
theorem clampRow_eq_of_toInt {N E w : Nat} (hN : 0 < N) (idx : IVec ⟨2, ![E, 1]⟩ w) (e : Fin E) (n : Fin N)
    (h : (idx (ix2 e (0 : Fin 1))).toInt = (n.val : Int)) : clampRow hN idx e = n := by
  refine Fin.ext ?_
  show min (idx (ix2 e (0 : Fin 1))).toInt.toNat (N - 1) = n.val
  have hn := n.isLt
  rw [h]
  omega

/-- THE LAW. A segment sum whose update row e is the gathered row H[src e] times D[src e] * D[dst e] is D[n] times
    the segment sum of the rows of the pre-scaled matrix HD = H * D (row-wise): an update lands on row n exactly when
    its scatter index is n, so the factor D[dst e] is D[n] on every update of the sum, and a nonnegative real factor
    comes out of a finite sum of extended reals. -/
theorem rowScatter_norm_factor {N E Fw : Nat} (hN : 0 < N) (wfg) (wfv) (wfs)
    (H HD Z : (⟨2, ![N, Fw]⟩ : Shape).Idx → EReal) (D : (⟨1, ![N]⟩ : Shape).Idx → EReal)
    (hD : ∀ n : Fin N, ∃ r : ℝ, 0 ≤ r ∧ D (ix1 n) = (r : EReal))
    (hZ : ∀ i, Z i = 0)
    (hHD : ∀ (n : Fin N) (f : Fin Fw), HD (ix2 n f) = H (ix2 n f) * D (ix1 n))
    (sN dR dN : IVec ⟨2, ![E, 1]⟩ 32)
    (hdN : ∀ e : Fin E, 0 ≤ (dR (ix2 e (0 : Fin 1))).toInt → (dR (ix2 e (0 : Fin 1))).toInt < (N : Int) →
      dN (ix2 e (0 : Fin 1)) = dR (ix2 e (0 : Fin 1)))
    (M : (⟨2, ![E, Fw]⟩ : Shape).Idx → EReal)
    (hM : ∀ (e : Fin E) (f : Fin Fw), M (ix2 e f) = Host.gather (rowGather N E Fw wfg) H sN (ix2 e f)
        * (Host.gather (vecGather N E wfv) D sN (ix1 e) * Host.gather (vecGather N E wfv) D dN (ix1 e)))
    (n : Fin N) (f : Fin Fw) :
    Ideal.hostScatterAdd (rowScatter N E Fw wfs) Z dR M (ix2 n f)
      = D (ix1 n) * Ideal.hostScatterAdd (rowScatter N E Fw wfs) Z dR (Host.gather (rowGather N E Fw wfg) HD sN) (ix2 n f) := by
  obtain ⟨r, hr0, hr⟩ := hD n
  unfold Ideal.hostScatterAdd
  rw [hZ, zero_add, zero_add, hr, coe_mul_finset_sum r hr0]
  refine Finset.sum_congr rfl ?_
  intro j hj
  obtain ⟨e, f', rfl⟩ : ∃ (e : Fin E) (f' : Fin Fw), j = ix2 e f' := ⟨j 0, j 1, eq_ix2 j⟩
  have hland := (rowScatter_resultIdx_eq_some wfs dR e f' n f).mp (Finset.mem_filter.mp hj).2
  have hn := n.isLt
  have hdd : dN (ix2 e (0 : Fin 1)) = dR (ix2 e (0 : Fin 1)) := hdN e (by omega) (by omega)
  have hc : clampRow hN dN e = n := clampRow_eq_of_toInt hN dN e n (by rw [hdd]; exact hland.1)
  rw [hM e f', rowGather_apply hN wfg H sN e f', vecGather_apply hN wfv D sN e, vecGather_apply hN wfv D dN e,
    rowGather_apply hN wfg HD sN e f', hHD, hc, hr, ← mul_assoc, mul_comm]

end Idealize.ShloMosaic.RowTake

end
-- ==== Proof.Spec.lean ====
/-
  Two mean-aggregating graph layers followed by a row softmax, written index by index over the extended reals.

  An edge e carries a source row (the start index of a row gather: read signed and clamped into the node range)
  and a target (the scatter index of a segment sum: read signed, dropped when out of range). The segment sum of
  a node matrix M at node n is the sum, over the edges whose target is n, of M's row at the edge's source. The
  mean divides it by D n, the clipped in-degree of n.

  Layer 1:   hid n k   = max (mean(x) n · W1l[:,k] + b1 k + x n · W1r[:,k]) 0
  Layer 2:   logit n j = mean(hid) n · W2l[:,j] + b2 j + hid n · W2r[:,j]
  Output:    softmax over j of logit n.

  Each layer is written twice: with the mean taken before the product with the left weight (the quotient by D n),
  and with the per-node factor 1 / D n applied to the segment sum; in layer 2 the second form also projects the
  hidden rows by W2l BEFORE the segment sum. The two forms of layer 1 agree on every extended real as soon as D n
  is a nonzero real; the two forms of layer 2 agree when moreover the hidden rows and W2l are real.
-/
import Idealize.ShloMosaic.PureOps.Ideal
import Idealize.ShloMosaic.PureOps.Ideal.Laws
import Idealize.ShloMosaic.Lib.ValueIdx
import proofs.«141838_j8426725835327_2_alg».proof.Proof.LibRowGatherScatter

noncomputable section

open scoped BigOperators

namespace Cert.Sage

open Idealize.ShloMosaic Idealize.ShloMosaic.ValueIdx Idealize.ShloMosaic.RowTake

/-- The shape of an edge-index column. -/
abbrev EIdx : Shape := ⟨2, ![800000, 1]⟩

/-- The edges whose target, read signed, is node n. -/
def into (dst : IVec EIdx 32) (n : Fin 50000) : Finset (Fin 800000) :=
  Finset.univ.filter fun e => (dst (ix2 e (0 : Fin 1))).toInt = (n.val : Int)

/-- The source row of edge e: its start index read signed and clamped into the node range. -/
def srcRow (src : IVec EIdx 32) (e : Fin 800000) : Fin 50000 := clampRow (Nat.succ_pos _) src e

/-- The segment sum of the rows of M: at node n, column f, the sum over the edges into n of M at the edge's source. -/
def seg {Fw : ℕ} (src dst : IVec EIdx 32) (M : Fin 50000 → Fin Fw → EReal) (n : Fin 50000) (f : Fin Fw) : EReal :=
  ∑ e ∈ into dst n, M (srcRow src e) f

/-- The maximum of a row of sixteen, folded from the value of the float word of minus infinity. -/
def rowmax (z : Fin 16 → EReal) : EReal :=
  (Finset.univ : Finset (Fin 16)).fold max (Ideal.ofBits .f32 0xFF800000#32) z

/-- The softmax of a row of sixteen, shifted by the row's maximum. -/
def softmax (z : Fin 16 → EReal) (j : Fin 16) : EReal :=
  Ideal.div (Ideal.exp (z j - rowmax z)) (∑ j' : Fin 16, Ideal.exp (z j' - rowmax z))

section Layers

variable (src dst : IVec EIdx 32) (D : Fin 50000 → EReal)
  (x : (⟨2, ![50000, 96]⟩ : Shape).Idx → EReal)
  (W1l : (⟨2, ![96, 128]⟩ : Shape).Idx → EReal) (b1 : (⟨1, ![128]⟩ : Shape).Idx → EReal)
  (W1r : (⟨2, ![96, 128]⟩ : Shape).Idx → EReal)
  (W2l : (⟨2, ![128, 16]⟩ : Shape).Idx → EReal) (b2 : (⟨1, ![16]⟩ : Shape).Idx → EReal)
  (W2r : (⟨2, ![128, 16]⟩ : Shape).Idx → EReal)

/-- The segment sum of the input rows. -/
def agg1 (n : Fin 50000) (i : Fin 96) : EReal := seg src dst (fun a b => x (ix2 a b)) n i

/-- Layer 1, the mean taken first: the quotient of the segment sum by D n, times W1l, plus b1, plus x · W1r. -/
def Rhid (n : Fin 50000) (k : Fin 128) : EReal :=
  max (((∑ i : Fin 96, Ideal.div (agg1 src dst x n i) (D n) * W1l (ix2 i k)) + b1 (ix1 k))
      + ∑ i : Fin 96, x (ix2 n i) * W1r (ix2 i k)) 0

/-- Layer 1, the factor 1 / D n applied to the segment sum, and the bias added last. -/
def Khid (n : Fin 50000) (k : Fin 128) : EReal :=
  max (((∑ i : Fin 96, (agg1 src dst x n i * Ideal.div 1 (D n)) * W1l (ix2 i k))
      + ∑ i : Fin 96, x (ix2 n i) * W1r (ix2 i k)) + b1 (ix1 k)) 0

/-- Layer 2, the mean of the hidden rows taken first, then the product with W2l. -/
def Rlogit (n : Fin 50000) (j : Fin 16) : EReal :=
  ((∑ k : Fin 128, Ideal.div (seg src dst (Rhid src dst D x W1l b1 W1r) n k) (D n) * W2l (ix2 k j)) + b2 (ix1 j))
    + ∑ k : Fin 128, Rhid src dst D x W1l b1 W1r n k * W2r (ix2 k j)

/-- The hidden rows projected by W2l. -/
def Kproj (n : Fin 50000) (j : Fin 16) : EReal :=
  ∑ k : Fin 128, Khid src dst D x W1l b1 W1r n k * W2l (ix2 k j)

/-- Layer 2, the projected rows summed over the edges and scaled by 1 / D n. -/
def Klogit (n : Fin 50000) (j : Fin 16) : EReal :=
  ((seg src dst (Kproj src dst D x W1l b1 W1r W2l) n j * Ideal.div 1 (D n)) + b2 (ix1 j))
    + ∑ k : Fin 128, Khid src dst D x W1l b1 W1r n k * W2r (ix2 k j)

/-- The output, mean-first form. -/
def Rout (n : Fin 50000) (j : Fin 16) : EReal := softmax (Rlogit src dst D x W1l b1 W1r W2l b2 W2r n) j

/-- The output, factor-last form. -/
def Kout (n : Fin 50000) (j : Fin 16) : EReal := softmax (Klogit src dst D x W1l b1 W1r W2l b2 W2r n) j

end Layers

end Cert.Sage

end
-- ==== Proof.KForm.lean ====
/-
  What each kernel region leaves in its output arrays, as whole-array functions of the arrays the region finds,
  index by index (rows n of the 50000 nodes; the per-node factor is a column, read at (n, 0)):
  • region 1:  hidden n k = max (((∑ i, (R1 n i * f n) * W1l i k) + ∑ i, X n i * W1r i k) + b1 k) 0,
               proj n j   = ∑ k, hidden n k * W2l k j;
  • region 2:  the row softmax of  ((R2 n j * f n) + b2 j) + ∑ k, H n k * W2r k j.
-/
import proofs.«141838_j8426725835327_2_alg».proof.Proof.Spec

noncomputable section

open scoped BigOperators

namespace Cert.Sage

open Idealize.ShloMosaic Idealize.ShloMosaic.ValueIdx

/-- A matrix given by rows and columns, as a function of the index. -/
def ofRC {a b : ℕ} (g : Fin a → Fin b → EReal) : (⟨2, ![a, b]⟩ : Shape).Idx → EReal := fun i => g (i 0) (i 1)

theorem ofRC_ix2 {a b : ℕ} (g : Fin a → Fin b → EReal) (p : Fin a) (q : Fin b) : ofRC g (ix2 p q) = g p q := rfl

section

variable (R1 X : (⟨2, ![50000, 96]⟩ : Shape).Idx → EReal) (f : (⟨2, ![50000, 1]⟩ : Shape).Idx → EReal)
  (W1l : (⟨2, ![96, 128]⟩ : Shape).Idx → EReal) (b1 : (⟨1, ![128]⟩ : Shape).Idx → EReal)
  (W1r : (⟨2, ![96, 128]⟩ : Shape).Idx → EReal) (W2l : (⟨2, ![128, 16]⟩ : Shape).Idx → EReal)

/-- The hidden rows the first region writes. -/
def Hk (n : Fin 50000) (k : Fin 128) : EReal :=
  max (((∑ i : Fin 96, (R1 (ix2 n i) * f (ix2 n (0 : Fin 1))) * W1l (ix2 i k))
      + ∑ i : Fin 96, X (ix2 n i) * W1r (ix2 i k)) + b1 (ix1 k)) 0

/-- The projected rows the first region writes. -/
def Pk (n : Fin 50000) (j : Fin 16) : EReal := ∑ k : Fin 128, Hk R1 X f W1l b1 W1r n k * W2l (ix2 k j)

end

section

variable (R2 : (⟨2, ![50000, 16]⟩ : Shape).Idx → EReal) (H : (⟨2, ![50000, 128]⟩ : Shape).Idx → EReal)
  (f : (⟨2, ![50000, 1]⟩ : Shape).Idx → EReal) (b2 : (⟨1, ![16]⟩ : Shape).Idx → EReal)
  (W2r : (⟨2, ![128, 16]⟩ : Shape).Idx → EReal)

/-- The pre-softmax row the second region forms. -/
def Lk (n : Fin 50000) (j : Fin 16) : EReal :=
  ((R2 (ix2 n j) * f (ix2 n (0 : Fin 1))) + b2 (ix1 j)) + ∑ k : Fin 128, H (ix2 n k) * W2r (ix2 k j)

/-- The rows the second region writes. -/
def Ok (n : Fin 50000) (j : Fin 16) : EReal := softmax (Lk R2 H f b2 W2r n) j

end

end Cert.Sage

end
-- ==== Proof.LibLayoutReads.lean ====
/-
  Layout operations of a host program read at an index written by its coordinates: a broadcast of a scalar, of a
  vector to a column or a row, of a column or a row to a matrix; a vector cast to a one-row matrix; a plain matrix
  product read at (i, j) as the sum over the contracted coordinate; and two scalar facts: the guarded reciprocal
  square root select(x > 0, rsqrt x, 0) is a nonnegative real, and the wrap of a negative index leaves a
  nonnegative 32-bit word alone.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Idealize.ShloMosaic.LayoutReads

open Idealize.ShloMosaic Idealize.ShloMosaic.ValueIdx

variable {α : Type}

/-! ## Broadcasts at an index -/

/-- A broadcast scalar reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector [a] broadcast to a column [a, 1] reads, at (i, u), the vector at i. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) :=
  broadcastInDim_apply _ h x _ (ix1 i) (fun c => by
    have hi := i.isLt
    match c with
    | ⟨0, _⟩ =>
      show i.val = if a = 1 then 0 else i.val
      split <;> omega)

/-- A vector [b] broadcast to a row [1, b] reads, at (u, j), the vector at j. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) :=
  broadcastInDim_apply _ h x _ (ix1 j) (fun c => by
    have hj := j.isLt
    match c with
    | ⟨0, _⟩ =>
      show j.val = if b = 1 then 0 else j.val
      split <;> omega)

/-- A column [a, 1] broadcast to a matrix [a, b] reads, at (i, j), the column at (i, 0). -/
theorem bcast_col_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) :=
  broadcastInDim_apply _ h x _ (ix2 i (0 : Fin 1)) (fun c => by
    have hi := i.isLt
    match c with
    | ⟨0, _⟩ =>
      show i.val = if a = 1 then 0 else i.val
      split <;> omega
    | ⟨1, _⟩ =>
      show 0 = if 1 = 1 then 0 else j.val
      rfl)

/-- A row [1, b] broadcast to a matrix [a, b] reads, at (i, j), the row at (0, j). -/
theorem bcast_row_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) :=
  broadcastInDim_apply _ h x _ (ix2 (0 : Fin 1) j) (fun c => by
    have hj := j.isLt
    match c with
    | ⟨0, _⟩ =>
      show 0 = if 1 = 1 then 0 else i.val
      rfl
    | ⟨1, _⟩ =>
      show j.val = if b = 1 then 0 else j.val
      split <;> omega)

/-- A vector [b] cast to a one-row matrix [1, b] reads, at (u, j), the vector at j. -/
theorem shapeCast_vec_row_apply {b : ℕ} (h : (⟨1, ![b]⟩ : Shape).ShapeCasts ⟨2, ![1, b]⟩)
    (x : (⟨1, ![b]⟩ : Shape).Idx → α) (u : Fin 1) (j : Fin b) : shapeCast ⟨2, ![1, b]⟩ x h (ix2 u j) = x (ix1 j) :=
  shapeCast_a_1a_apply x h u j

/-! ## Two scalar facts -/

/-- The guarded reciprocal square root, select(x > 0, rsqrt x, 0), is a nonnegative real at every extended real x:
    0 off the positive half-line, 0 at the top, and the inverse of the square root at a positive real. -/
theorem dinv_nonneg_real (x : EReal) :
    ∃ r : ℝ, 0 ≤ r ∧ Scalar.select (Ideal.cmp .ogt x 0) (Ideal.rsqrt x) 0 = (r : EReal) := by
  by_cases hx : 0 < x
  · have hc : Ideal.cmp .ogt x 0 = 1#1 := by simp [Ideal.cmp, hx]
    rw [hc, select_one]
    induction x using EReal.rec with
    | bot => exact absurd hx (by simp)
    | top => exact ⟨0, le_rfl, by simp⟩
    | coe r =>
      have hr : 0 < r := by exact_mod_cast hx
      refine ⟨(Real.sqrt r)⁻¹, inv_nonneg.mpr (Real.sqrt_nonneg r), ?_⟩
      rw [Ideal.rsqrt_coe, if_neg (not_lt.mpr hr.le), if_neg hr.ne']
  · have hc : Ideal.cmp .ogt x 0 = 0#1 := by simp [Ideal.cmp, hx]
    rw [hc, select_zero]
    exact ⟨0, le_rfl, by simp⟩

/-- A 32-bit word that reads, signed, as nonnegative is left alone by the wrap of negative indices. -/
theorem wrap_of_nonneg (v : BitVec 32) (h0 : 0 ≤ v.toInt) :
    Scalar.select (IntOp.cmpi .slt v 0#32) (IntOp.addi v 100000#32) v = v := by
  have hs : v.slt 0#32 = false := by
    unfold BitVec.slt
    simp
    exact h0
  have hc : IntOp.cmpi .slt v 0#32 = 0#1 := by
    show BitVec.ofBool (v.slt 0#32) = 0#1
    rw [hs]; rfl
  rw [hc, select_zero]

/-! ## A plain matrix product at an index -/

/-- With no batch axis and one non-contracting axis on the left, that axis reads the result index's first coordinate. -/
theorem lhsIdx_val_of_single_non {sl sr so : Shape} (d : DotDims sl sr so) {a : Fin sl.rank}
    (hb : d.lhsBatch = []) (hn : d.lhsNonContracting = [a]) (j : so.Idx) (k : d.contr.Idx) (h0 : 0 < so.rank) :
    (d.lhsIdx j k a).val = (j ⟨0, h0⟩).val := by
  have hmem : a ∈ d.lhsNonContracting := by rw [hn]; exact List.mem_singleton.mpr rfl
  unfold DotDims.lhsIdx
  rw [dif_neg (by rw [hb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one non-contracting axis on the left and one on the right, the right one reads the result
    index's second coordinate. -/
theorem rhsIdx_val_of_single_non {sl sr so : Shape} (d : DotDims sl sr so) {al : Fin sl.rank} {a : Fin sr.rank}
    (hlb : d.lhsBatch = []) (hrb : d.rhsBatch = []) (hln : d.lhsNonContracting = [al]) (hn : d.rhsNonContracting = [a])
    (j : so.Idx) (k : d.contr.Idx) (h1 : 1 < so.rank) :
    (d.rhsIdx j k a).val = (j ⟨1, h1⟩).val := by
  have hmem : a ∈ d.rhsNonContracting := by rw [hn]; exact List.mem_singleton.mpr rfl
  unfold DotDims.rhsIdx
  rw [dif_neg (by rw [hrb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

/-- A plain matrix product [n, kk] x [kk, p] on the host, at the exact values, read at (i, j): the sum over the
    contracted coordinate k of lhs (i, k) * rhs (k, j). -/
theorem dotGeneral_plain_apply {n kk p : ℕ} {φ₁ φ₂ : FTy} (d : DotDims ⟨2, ![n, kk]⟩ ⟨2, ![kk, p]⟩ ⟨2, ![n, p]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![n, kk]⟩ φ₁) (rhs : FVec Ideal ⟨2, ![kk, p]⟩ φ₂)
    (i : Fin n) (j : Fin p) :
    Host.dotGeneral (F := Ideal) d prec lhs rhs (ix2 i j) = ∑ k : Fin kk, lhs (ix2 i k) * rhs (ix2 k j) := by
  have hr : d.contr.rank = 1 := by rw [d.rank_contr, hlc]; rfl
  have hs : d.contr.size ⟨0, by omega⟩ = kk := by
    have h1 : (0 : Nat) < d.lhsContracting.length := by rw [hlc]; exact Nat.one_pos
    refine (d.size_contr 0 h1).trans ?_
    have h2 : d.lhsContracting[0] = (1 : Fin 2) := by simp [hlc]
    rw [h2]; rfl
  simp only [Host.dotGeneral]
  rw [Ideal.dotGeneral_apply]
  refine Fintype.sum_equiv (contrEquiv1 d kk hr hs) _ _ (fun k => ?_)
  have hL : d.lhsIdx (ix2 i j) k = ix2 i (contrEquiv1 d kk hr hs k) := by
    funext c; refine Fin.ext ?_
    match c with
    | ⟨0, _⟩ => exact lhsIdx_val_of_single_non d hlb hln (ix2 i j) k (show 0 < 2 by omega)
    | ⟨1, _⟩ => exact d.lhsIdx_val_of_single hlc (ix2 i j) k
  have hR : d.rhsIdx (ix2 i j) k = ix2 (contrEquiv1 d kk hr hs k) j := by
    funext c; refine Fin.ext ?_
    match c with
    | ⟨0, _⟩ => exact d.rhsIdx_val_of_single hrc (ix2 i j) k
    | ⟨1, _⟩ => exact rhsIdx_val_of_single_non d hlb hrb hln hrn (ix2 i j) k (show 1 < 2 by omega)
  rw [hL, hR]

end Idealize.ShloMosaic.LayoutReads

end
-- ==== Proof.LibKernelReads.lean ====
/-
  A kernel-side operation read at an index written by coordinates: a plain matrix product [n, kk] x [kk, p] into a
  zero accumulator, at the exact values, reads at (i, j) the sum over the contracted coordinate k of
  lhs (i, k) * rhs (k, j).
-/
import proofs.«141838_j8426725835327_2_alg».proof.Proof.LibLayoutReads

noncomputable section

open scoped BigOperators

namespace Idealize.ShloMosaic.LayoutReads

open Idealize.ShloMosaic Idealize.ShloMosaic.ValueIdx

variable {α : Type}

/-- A plain matrix product [n, kk] x [kk, p] into the zero accumulator, at the exact values, read at (i, j). -/
theorem matmul_plain_zero_apply {n kk p : ℕ} {φ₁ φ₂ : FTy} (d : DotDims ⟨2, ![n, kk]⟩ ⟨2, ![kk, p]⟩ ⟨2, ![n, p]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![n, kk]⟩ φ₁) (rhs : FVec Ideal ⟨2, ![kk, p]⟩ φ₂)
    (i : Fin n) (j : Fin p) :
    FloatOps.matmul d prec lhs rhs (constant (F := Ideal) ⟨2, ![n, p]⟩ .f32 0x00000000#32) (ix2 i j)
      = ∑ k : Fin kk, lhs (ix2 i k) * rhs (ix2 k j) := by
  have hr : d.contr.rank = 1 := by rw [d.rank_contr, hlc]; rfl
  have hs : d.contr.size ⟨0, by omega⟩ = kk := by
    have h1 : (0 : Nat) < d.lhsContracting.length := by rw [hlc]; exact Nat.one_pos
    refine (d.size_contr 0 h1).trans ?_
    have h2 : d.lhsContracting[0] = (1 : Fin 2) := by simp [hlc]
    rw [h2]; rfl
  rw [Ideal.matmul_constant_zero_apply]
  refine Fintype.sum_equiv (contrEquiv1 d kk hr hs) _ _ (fun k => ?_)
  have hL : d.lhsIdx (ix2 i j) k = ix2 i (contrEquiv1 d kk hr hs k) := by
    funext c; refine Fin.ext ?_
    match c with
    | ⟨0, _⟩ => exact lhsIdx_val_of_single_non d hlb hln (ix2 i j) k (show 0 < 2 by omega)
    | ⟨1, _⟩ => exact d.lhsIdx_val_of_single hlc (ix2 i j) k
  have hR : d.rhsIdx (ix2 i j) k = ix2 (contrEquiv1 d kk hr hs k) j := by
    funext c; refine Fin.ext ?_
    match c with
    | ⟨0, _⟩ => exact d.rhsIdx_val_of_single hrc (ix2 i j) k
    | ⟨1, _⟩ => exact rhsIdx_val_of_single_non d hlb hrb hln hrn (ix2 i j) k (show 1 < 2 by omega)
  rw [hL, hR]

end Idealize.ShloMosaic.LayoutReads

end
-- ==== Proof.LibColumn.lean ====
/-
  Two layout operations read at an index written by coordinates, for the COLUMN shape `[a, 1]`: the shape a
  reduction along the last axis of an `[a, b]` matrix passes through when its result is set back beside the matrix
  (a row statistic kept as a column and repeated along the row).
  • a vector `[a]` viewed as the column `[a, 1]` reads, at `(i, u)`, the vector at `i`;
  • a column `[a, 1]` repeated along its unit axis to `[a, b]` reads, at `(i, j)`, the column at `(i, 0)`.
  Both are the general "read at an index" lemmas of a shape cast and of a broadcast with the row-major position,
  respectively the per-axis coordinates, worked out at these two ranks.
-/
import Idealize.ShloMosaic.Lib.Pipeline.Value
import Idealize.ShloMosaic.Lib.ValueIdx

namespace Cert.Column

open Idealize.ShloMosaic Idealize.ShloMosaic.ValueIdx

variable {α : Type}

/-- An `[a]` vector cast to the column `[a, 1]` reads, at `(i, u)`, the vector at `i`, whatever the unit
    coordinate `u`: the row-major position of `(i, u)` in `[a, 1]` is `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated along its unit axis to `[a, b]` reads, at `(i, j)`, the column's entry of row `i`:
    on the first axis the coordinate is kept (or is `0` anyway when `a = 1`), on the unit axis it is `0`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Column
-- ==== Proof.Region0.lean ====
/-
  The first kernel region, read as values: from the arrays the region finds (the segment sum of the input rows R1,
  the input rows X, the per-node factor column f, the weights W1l, W1r, W2l and the bias b1) it leaves, in its two
  output arrays, the hidden rows and the projected rows

      hidden n k = max (((∑ i, (R1 n i * f n) * W1l i k) + ∑ i, X n i * W1r i k) + b1 k) 0,
      proj n j   = ∑ k, hidden n k * W2l k j.

  Point t of the 25 handles rows 2000 t … 2000 t + 1999: the row-blocked windows read and write block (t, 0), the
  weight and bias windows their whole arrays; the body's stored values are read at an index (the two matrix products
  as sums over the contracted coordinate, the column factor repeated along the row, the bias repeated down the rows);
  the 25 row blocks tile each output array, so each ends holding the whole-array function.
-/
import proofs.«141838_j8426725835327_2_alg».proof.Proof.Gen.KernelIdeal.Frame
import proofs.«141838_j8426725835327_2_alg».proof.Proof.KForm
import proofs.«141838_j8426725835327_2_alg».proof.Proof.LibKernelReads
import proofs.«141838_j8426725835327_2_alg».proof.Proof.LibColumn
import Idealize.ShloMosaic.Lib.ValueLayout

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.ShloMosaic.LayoutReads
open Idealize.SL.Sem
open Idealize.ShloMosaic.Pipeline (Dat)

/-! ## The stored values at an index -/

/-- The hidden block a point stores, at row p, column q of the block. -/
theorem pay1_apply (v0 : Vec Ideal S2000x1 .f32) (v2 v7 : Vec Ideal S2000x96 .f32) (v9 v11 : Vec Ideal S96x128 .f32)
    (v16 : Vec Ideal S128 .f32) (p : Fin 2000) (q : Fin 128) :
    k0_pay1 v0 v2 v7 v9 v11 v16 (ix2 p q)
      = max (((∑ i : Fin 96, (v2 (ix2 p i) * v0 (ix2 p (0 : Fin 1))) * v9 (ix2 i q))
          + ∑ i : Fin 96, v7 (ix2 p i) * v11 (ix2 i q)) + v16 (ix1 q)) 0 := by
  unfold k0_pay1
  simp only [maximumf_apply, addf_apply, broadcast_apply, matmul]
  rw [matmul_plain_zero_apply _ rfl rfl rfl rfl rfl rfl, matmul_plain_zero_apply _ rfl rfl rfl rfl rfl rfl,
    broadcastTo_1b_ab_apply, shapeCast_vec_row_apply]
  simp only [truncf_apply, mulf_apply, shapeCast_self, Cert.Column.broadcastTo_a1_ab_apply, Ideal.ofBits_def,
    Ideal.ofBits_zero_f32]

/-- The projected block a point stores, at row p, column j of the block. -/
theorem pay2_apply (v0 : Vec Ideal S2000x1 .f32) (v2 v7 : Vec Ideal S2000x96 .f32) (v9 v11 : Vec Ideal S96x128 .f32)
    (v16 : Vec Ideal S128 .f32) (v24 : Vec Ideal S128x16 .f32) (p : Fin 2000) (j : Fin 16) :
    k0_pay2 v0 v2 v7 v9 v11 v16 v24 (ix2 p j)
      = ∑ k : Fin 128, k0_pay1 v0 v2 v7 v9 v11 v16 (ix2 p k) * v24 (ix2 k j) := by
  unfold k0_pay2
  simp only [matmul]
  rw [matmul_plain_zero_apply _ rfl rfl rfl rfl rfl rfl]
  simp only [truncf_apply]

/-! ## The blocks -/

variable (V : (c : Dev nD) → (b : Ref sig .tc) → Buf (Elt Ideal) ((c : Thread nD τ).loc b))

theorem hz : (![0, 0] : Fin 2 → Nat) = fun _ => 0 := funext fun a => by fin_cases a <;> rfl

theorem hz1 : (![0] : Fin 1 → Nat) = fun _ => 0 := funext fun a => by fin_cases a; rfl

/-- The printed index maps over the grid: the row-blocked windows sit at block (t, 0), the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 ∧ t.val < 25 :=
  (by decide +kernel : ∀ t : Fin grid0.N, _)

/-- Row p of point t's block is row 2000 t + p of the array. -/
def rowOf (t : Fin cfg0.N) (p : Fin 2000) : Fin 50000 :=
  ⟨t.val * 2000 + p.val, by have h := (idx_facts t).2.2.2.2.2.2.2.2.2.2.2.2.2.2.2.2.2; have := p.isLt; omega⟩

theorem blk0 (c : Dev nD) (t : Fin cfg0.N) (p : Fin 2000) (i : Fin 96) :
    (iblk0 V c 0 t : Vec Ideal S2000x96 .f32) (ix2 p i) = (V c main_v22 : S50000x96.Idx → EReal) (ix2 (rowOf t p) i) := by
  obtain ⟨e0, e1, -⟩ := idx_facts t
  unfold iblk0
  rw [View.read_apply]
  show V c main_v22 _ = V c main_v22 _
  congr 1
  funext a
  apply Fin.ext
  match a with
  | ⟨0, _⟩ => show win0_0.index t 0 * 2000 + 1 * p.val = t.val * 2000 + p.val; rw [e0]; omega
  | ⟨1, _⟩ => show win0_0.index t 1 * 96 + 1 * i.val = i.val; rw [e1]; omega

theorem blk1 (c : Dev nD) (t : Fin cfg0.N) (p : Fin 2000) (i : Fin 96) :
    (iblk0 V c 1 t : Vec Ideal S2000x96 .f32) (ix2 p i) = (V c main_arg0 : S50000x96.Idx → EReal) (ix2 (rowOf t p) i) := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t 0 * 2000 + 1 * p.val = t.val * 2000 + p.val; rw [e0]; omega
  | ⟨1, _⟩ => show win0_1.index t 1 * 96 + 1 * i.val = i.val; rw [e1]; omega

theorem blk2 (c : Dev nD) (t : Fin cfg0.N) (p : Fin 2000) :
    (iblk0 V c 2 t : Vec Ideal S2000x1 .f32) (ix2 p (0 : Fin 1))
      = (V c main_v12 : S50000x1.Idx → EReal) (ix2 (rowOf t p) (0 : Fin 1)) := by
  obtain ⟨-, -, -, -, e0, e1, -⟩ := idx_facts t
  unfold iblk0
  rw [View.read_apply]
  show V c main_v12 _ = V c main_v12 _
  congr 1
  funext a
  apply Fin.ext
  match a with
  | ⟨0, _⟩ => show win0_2.index t 0 * 2000 + 1 * p.val = t.val * 2000 + p.val; rw [e0]; omega
  | ⟨1, _⟩ => show win0_2.index t 1 * 1 + 1 * 0 = 0; rw [e1]

theorem blk3 (c : Dev nD) (t : Fin cfg0.N) (i : Fin 96) (q : Fin 128) :
    (iblk0 V c 3 t : Vec Ideal S96x128 .f32) (ix2 i q) = (V c main_arg2 : S96x128.Idx → EReal) (ix2 i q) := by
  obtain ⟨-, -, -, -, -, -, e0, e1, -⟩ := idx_facts t
  unfold iblk0
  rw [View.read_apply]
  show V c main_arg2 _ = V c main_arg2 _
  congr 1
  funext a
  apply Fin.ext
  match a with
  | ⟨0, _⟩ => show win0_3.index t 0 * 96 + 1 * i.val = i.val; rw [e0]; omega
  | ⟨1, _⟩ => show win0_3.index t 1 * 128 + 1 * q.val = q.val; rw [e1]; omega

theorem blk4 (c : Dev nD) (t : Fin cfg0.N) (q : Fin 128) :
    (iblk0 V c 4 t : Vec Ideal S128 .f32) (ix1 q) = (V c main_arg3 : S128.Idx → EReal) (ix1 q) := by
  obtain ⟨-, -, -, -, -, -, -, -, e0, -⟩ := idx_facts t
  unfold iblk0
  rw [View.read_apply]
  show V c main_arg3 _ = V c main_arg3 _
  congr 1
  funext a
  apply Fin.ext
  match a with
  | ⟨0, _⟩ => show win0_4.index t 0 * 128 + 1 * q.val = q.val; rw [e0]; omega

theorem blk5 (c : Dev nD) (t : Fin cfg0.N) (i : Fin 96) (q : Fin 128) :
    (iblk0 V c 5 t : Vec Ideal S96x128 .f32) (ix2 i q) = (V c main_arg4 : S96x128.Idx → EReal) (ix2 i q) := by
  obtain ⟨-, -, -, -, -, -, -, -, -, e0, e1, -⟩ := idx_facts t
  unfold iblk0
  rw [View.read_apply]
  show V c main_arg4 _ = V c main_arg4 _
  congr 1
  funext a
  apply Fin.ext
  match a with
  | ⟨0, _⟩ => show win0_5.index t 0 * 96 + 1 * i.val = i.val; rw [e0]; omega
  | ⟨1, _⟩ => show win0_5.index t 1 * 128 + 1 * q.val = q.val; rw [e1]; omega

theorem blk6 (c : Dev nD) (t : Fin cfg0.N) (k : Fin 128) (j : Fin 16) :
    (iblk0 V c 6 t : Vec Ideal S128x16 .f32) (ix2 k j) = (V c main_arg5 : S128x16.Idx → EReal) (ix2 k j) := by
  obtain ⟨-, -, -, -, -, -, -, -, -, -, -, e0, e1, -⟩ := idx_facts t
  unfold iblk0
  rw [View.read_apply]
  show V c main_arg5 _ = V c main_arg5 _
  congr 1
  funext a
  apply Fin.ext
  match a with
  | ⟨0, _⟩ => show win0_6.index t 0 * 128 + 1 * k.val = k.val; rw [e0]; omega
  | ⟨1, _⟩ => show win0_6.index t 1 * 16 + 1 * j.val = j.val; rw [e1]; omega

/-! ## What a point writes back, and the whole arrays -/

/-- An index of the hidden array is in point t's block iff each coordinate is in the block's range on its axis. -/
theorem mem_blk7 (t : Fin cfg0.N) (i : S50000x128.Idx) :
    i ∈ ((cfg0.win 7).blk t).view.set ↔ ∀ a : Fin 2, win0_7.index t a * S2000x128.size a ≤ (i a).val
      ∧ (i a).val < win0_7.index t a * S2000x128.size a + S2000x128.size a := by
  show i ∈ ((View.whole main_v23_0).slice (win0_7.rect t)).set ↔ _
  rw [View.set_slice_whole, Rect.mem_set_unit]
  exact Iff.rfl

theorem mem_blk8 (t : Fin cfg0.N) (i : S50000x16.Idx) :
    i ∈ ((cfg0.win 8).blk t).view.set ↔ ∀ a : Fin 2, win0_8.index t a * S2000x16.size a ≤ (i a).val
      ∧ (i a).val < win0_8.index t a * S2000x16.size a + S2000x16.size a := by
  show i ∈ ((View.whole main_v23_1).slice (win0_8.rect t)).set ↔ _
  rw [View.set_slice_whole, Rect.mem_set_unit]
  exact Iff.rfl

/-- Point t writes back block t of the hidden rows as a function of the arrays the region finds. -/
theorem flushed7_eq (c : Dev nD) (t : Fin cfg0.N) :
    (dat0 V c).flushed 7 t = ((cfg0.win 7).blk t).view.read (Elt Ideal)
      (Cert.Sage.ofRC (Cert.Sage.Hk (V c main_v22) (V c main_arg0) (V c main_v12) (V c main_arg2) (V c main_arg3)
        (V c main_arg4))) := by
  show (cfg0.win 7).cut (grid0.coords t) ((dat0 V c).after 7 t) = _
  rw [after0_7]
  unfold out0_7
  rw [View.canon_unit_zero hz]
  simp only [View.ld_unit_zero (S := S2000x1) hz, View.ld_unit_zero (S := S2000x96) hz,
    View.ld_unit_zero (S := S96x128) hz, View.ld_unit_zero (S := S128) hz1]
  funext j
  obtain ⟨p, q, rfl⟩ : ∃ (p : Fin 2000) (q : Fin 128), j = ix2 p q := ⟨j 0, j 1, eq_ix2 j⟩
  rw [View.read_apply]
  have hemb : ((cfg0.win 7).blk t).view.emb (ix2 p q) = ix2 (rowOf t p) q := by
    obtain ⟨-, -, -, -, -, -, -, -, -, -, -, -, -, e0, e1, -⟩ := idx_facts t
    funext a
    apply Fin.ext
    match a with
    | ⟨0, _⟩ => show win0_7.index t 0 * 2000 + 1 * p.val = t.val * 2000 + p.val; rw [e0]; omega
    | ⟨1, _⟩ => show win0_7.index t 1 * 128 + 1 * q.val = q.val; rw [e1]; omega
  rw [hemb, Cert.Sage.ofRC_ix2]
  show k0_pay1 _ _ _ _ _ _ (ix2 p q) = _
  rw [pay1_apply]
  unfold Cert.Sage.Hk
  simp only [blk0, blk1, blk2, blk3, blk4, blk5]
  rfl

/-- Point t writes back block t of the projected rows. -/
theorem flushed8_eq (c : Dev nD) (t : Fin cfg0.N) :
    (dat0 V c).flushed 8 t = ((cfg0.win 8).blk t).view.read (Elt Ideal)
      (Cert.Sage.ofRC (Cert.Sage.Pk (V c main_v22) (V c main_arg0) (V c main_v12) (V c main_arg2) (V c main_arg3)
        (V c main_arg4) (V c main_arg5))) := by
  show (cfg0.win 8).cut (grid0.coords t) ((dat0 V c).after 8 t) = _
  rw [after0_8]
  unfold out0_8
  rw [View.canon_unit_zero hz]
  simp only [View.ld_unit_zero (S := S2000x1) hz, View.ld_unit_zero (S := S2000x96) hz,
    View.ld_unit_zero (S := S96x128) hz, View.ld_unit_zero (S := S128) hz1, View.ld_unit_zero (S := S128x16) hz]
  funext j
  obtain ⟨p, q, rfl⟩ : ∃ (p : Fin 2000) (q : Fin 16), j = ix2 p q := ⟨j 0, j 1, eq_ix2 j⟩
  rw [View.read_apply]
  have hemb : ((cfg0.win 8).blk t).view.emb (ix2 p q) = ix2 (rowOf t p) q := by
    obtain ⟨-, -, -, -, -, -, -, -, -, -, -, -, -, -, -, e0, e1, -⟩ := idx_facts t
    funext a
    apply Fin.ext
    match a with
    | ⟨0, _⟩ => show win0_8.index t 0 * 2000 + 1 * p.val = t.val * 2000 + p.val; rw [e0]; omega
    | ⟨1, _⟩ => show win0_8.index t 1 * 16 + 1 * q.val = q.val; rw [e1]; omega
  rw [hemb, Cert.Sage.ofRC_ix2]
  show k0_pay2 _ _ _ _ _ _ _ (ix2 p q) = _
  rw [pay2_apply]
  unfold Cert.Sage.Pk Cert.Sage.Hk
  simp only [pay1_apply, blk0, blk1, blk2, blk3, blk4, blk5, blk6]
  rfl

/-- Every row of the hidden array is in the block of the point its row number divided by 2000 names. -/
theorem cover7 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, -, -, -, -, -, -, -, e0, e1, -⟩ := idx_facts t
  refine ⟨t, flush0_7 t, ?_⟩
  rw [mem_blk7]
  intro a
  match a with
  | ⟨0, _⟩ =>
    show win0_7.index t 0 * 2000 ≤ (i 0).val ∧ (i 0).val < win0_7.index t 0 * 2000 + 2000
    rw [e0, ht]; omega
  | ⟨1, _⟩ =>
    show win0_7.index t 1 * 128 ≤ (i 1).val ∧ (i 1).val < win0_7.index t 1 * 128 + 128
    rw [e1]; omega

theorem cover8 (i : S50000x16.Idx) :
    ∃ t : Fin cfg0.N, (cfg0.win 8).flush t = true ∧ i ∈ ((cfg0.win 8).blk t).view.set := by
  have hi0 : (i 0).val < 50000 := (i 0).isLt
  have hi1 : (i 1).val < 16 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, -, -, -, -, -, -, -, -, -, e0, e1, -⟩ := idx_facts t
  refine ⟨t, flush0_8 t, ?_⟩
  rw [mem_blk8]
  intro a
  match a with
  | ⟨0, _⟩ =>
    show win0_8.index t 0 * 2000 ≤ (i 0).val ∧ (i 0).val < win0_8.index t 0 * 2000 + 2000
    rw [e0, ht]; omega
  | ⟨1, _⟩ =>
    show win0_8.index t 1 * 16 ≤ (i 1).val ∧ (i 1).val < win0_8.index t 1 * 16 + 16
    rw [e1]; omega

/-- The hidden array after the region. -/
theorem arr_hidden (c : Dev nD) :
    (dat0 V c).arrAt 7 cfg0.N = Cert.Sage.ofRC (Cert.Sage.Hk (V c main_v22) (V c main_arg0) (V c main_v12)
      (V c main_arg2) (V c main_arg3) (V c main_arg4)) :=
  (dat0 V c).arrAt_eq_of_cover 7 _ (fun t _ => flushed7_eq V c t) cover7

/-- The projected array after the region. -/
theorem arr_proj (c : Dev nD) :
    (dat0 V c).arrAt 8 cfg0.N = Cert.Sage.ofRC (Cert.Sage.Pk (V c main_v22) (V c main_arg0) (V c main_v12)
      (V c main_arg2) (V c main_arg3) (V c main_arg4) (V c main_arg5)) :=
  (dat0 V c).arrAt_eq_of_cover 8 _ (fun t _ => flushed8_eq V c t) cover8

end Cert.KernelIdeal.Region0

end
-- ==== Proof.Region1.lean ====
/-
  What the second kernel region leaves in its output array, as one function of the arrays the region finds.

  The region walks 25 points; at point t it holds rows t · 2000 … t · 2000 + 1999 of three row-blocked arrays — the
  aggregated rows R [50000, 16], the hidden rows H [50000, 128] and the per-row factor f [50000, 1] — together with the
  whole bias vector b [16] and the whole weight matrix W [128, 16], and writes rows t · 2000 … t · 2000 + 1999 of the
  output [50000, 16].

  On one block the body forms, at row p and column j, the value  z p j = ((R p j · f p) + b j) + ∑ k, H p k · W k j,  then
  takes the maximum of each row (folded from the value of minus infinity's word), subtracts it, exponentiates, sums each
  row, and divides: entry (p, q) of what it stores is the shifted softmax of the row z p at q. Every step that is not
  entrywise is read at an entry written by its two coordinates: a row statistic is a vector [2000] viewed as a column
  [2000, 1] and repeated along the row; the bias is a vector [16] viewed as a row [1, 16] and repeated down the rows; the
  product with W is the sum over the contracted coordinate; the narrowing of the product's operands changes nothing on
  the extended reals.

  A block's entry (p, q) at point t is the array's entry (t · 2000 + p, q) (block index × block size + the coordinate
  inside the block; the block column is always 0, and the bias and the weights are single whole blocks). So point t
  writes back block t of the function  n, j ↦ softmax (z n) j  of the arrays the region finds, and since row r lies in
  the block of point r / 2000 the blocks cover the array: the output array ends holding that function.
-/
import proofs.«141838_j8426725835327_2_alg».proof.Proof.KForm
import proofs.«141838_j8426725835327_2_alg».proof.Proof.LibColumn
import proofs.«141838_j8426725835327_2_alg».proof.Proof.LibKernelReads
import proofs.«141838_j8426725835327_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

/-! ## The body's value at an entry of its block -/

section Payload

variable (x0 : FVec Ideal S2000x16 .f32) (x1 : FVec Ideal S2000x128 .f32) (x2 : FVec Ideal S2000x1 .f32)
  (x3 : FVec Ideal S16 .f32) (x4 : FVec Ideal S128x16 .f32)

/-- The block of rows before the softmax: the aggregated rows times the per-row factor, plus the bias row, plus the
    product of the hidden rows with the weight matrix. -/
def logits : FVec Ideal S2000x16 .f32 :=
  addf (addf (mulf (shapeCast S2000x16 x0 shapeCasts_S2000x16_S2000x16)
                (broadcastTo S2000x16 (shapeCast S2000x1 x2 shapeCasts_S2000x1_S2000x1) broadcasts_S2000x1_S2000x16))
          (broadcastTo S2000x16 (shapeCast S1x16 x3 shapeCasts_S16_S1x16) broadcasts_S1x16_S2000x16))
    (matmul dot_S2000x128_S128x16_S2000x16_1_0_0_1_n_n none
      (truncf .bf16 (shapeCast S2000x128 x1 shapeCasts_S2000x128_S2000x128) bitsLt_bf16_f32)
      (truncf .bf16 x4 bitsLt_bf16_f32) (constant S2000x16 .f32 0x00000000#32))

/-- The maximum of each row, set back beside the block as a column repeated along the row. -/
def rowMaxCol (L : FVec Ideal S2000x16 .f32) : FVec Ideal S2000x16 .f32 :=
  broadcastTo S2000x16
    (shapeCast S2000x1 (multiReduction (F := Ideal) .maximumf [1] S2000 L 0xFF800000#32 reduces_S2000x16_S2000 (.inl rfl) rfl)
      shapeCasts_S2000_S2000x1) broadcasts_S2000x1_S2000x16

/-- The sum of each row, set back beside the block the same way. -/
def rowSumCol (E : FVec Ideal S2000x16 .f32) : FVec Ideal S2000x16 .f32 :=
  broadcastTo S2000x16
    (shapeCast S2000x1 (multiReduction (F := Ideal) .add [1] S2000 E 0x00000000#32 reduces_S2000x16_S2000 (.inl rfl) rfl)
      shapeCasts_S2000_S2000x1) broadcasts_S2000x1_S2000x16

/-- The body's result is the shifted softmax chain of that block, operation by operation. -/
theorem pay_eq : k1_pay1 (F := Ideal) x2 x0 x1 x4 x3 =
    divf (Idealize.ShloMosaic.exp (subf (logits x0 x1 x2 x3 x4) (rowMaxCol (logits x0 x1 x2 x3 x4))))
      (rowSumCol (Idealize.ShloMosaic.exp (subf (logits x0 x1 x2 x3 x4) (rowMaxCol (logits x0 x1 x2 x3 x4))))) := rfl

/-- Entry (p, q) of the block before the softmax. -/
theorem logits_apply (p : Fin 2000) (q : Fin 16) :
    logits x0 x1 x2 x3 x4 (ix2 p q)
      = ((x0 (ix2 p q) * x2 (ix2 p (0 : Fin 1))) + x3 (ix1 q)) + ∑ k : Fin 128, x1 (ix2 p k) * x4 (ix2 k q) := by
  unfold logits
  rw [addf_apply, addf_apply, mulf_apply, shapeCast_self, shapeCast_self, shapeCast_self,
    Cert.Column.broadcastTo_a1_ab_apply, broadcastTo_1b_ab_apply, LayoutReads.shapeCast_vec_row_apply]
  refine congrArg (fun z : EReal => ((x0 (ix2 p q) * x2 (ix2 p (0 : Fin 1))) + x3 (ix1 q)) + z) ?_
  exact LayoutReads.matmul_plain_zero_apply dot_S2000x128_S128x16_S2000x16_1_0_0_1_n_n rfl rfl rfl rfl rfl rfl none _ _ p q

/-- The index a row's reduction reads: the row, at each column. -/
theorem lift_ix (p : Fin 2000) (k : Fin 16) : reduces_S2000x16_S2000.lift (ix1 p) k = ix2 p k := by
  funext a
  apply Fin.ext
  match a with
  | ⟨0, _⟩ => rfl
  | ⟨1, _⟩ => rfl

/-- Entry (p, q) of the row-maximum column: the maximum of row p, folded from the value of minus infinity's word. -/
theorem rowMaxCol_apply (L : FVec Ideal S2000x16 .f32) (p : Fin 2000) (q : Fin 16) :
    rowMaxCol L (ix2 p q)
      = (Finset.univ : Finset (Fin 16)).fold max (Ideal.ofBits .f32 0xFF800000#32) (fun j' => L (ix2 p j')) := by
  unfold rowMaxCol
  rw [Cert.Column.broadcastTo_a1_ab_apply, Cert.Column.shapeCast_a_a1_apply]
  refine (Ideal.multiReduction_maximumf_single L 0xFF800000#32 reduces_S2000x16_S2000 (.inl rfl) rfl (ix1 p)).trans ?_
  show (Finset.univ : Finset (Fin 16)).fold max (Ideal.ofBits .f32 0xFF800000#32) (fun k => L (reduces_S2000x16_S2000.lift (ix1 p) k)) = _
  exact congrArg (fun f => (Finset.univ : Finset (Fin 16)).fold max (Ideal.ofBits .f32 0xFF800000#32) f) (funext fun k => congrArg L (lift_ix p k))

/-- Entry (p, q) of the row-sum column: the sum of row p. -/
theorem rowSumCol_apply (E : FVec Ideal S2000x16 .f32) (p : Fin 2000) (q : Fin 16) :
    rowSumCol E (ix2 p q) = ∑ j' : Fin 16, E (ix2 p j') := by
  unfold rowSumCol
  rw [Cert.Column.broadcastTo_a1_ab_apply, Cert.Column.shapeCast_a_a1_apply]
  refine (Ideal.multiReduction_add_single E 0x00000000#32 reduces_S2000x16_S2000 (.inl rfl) rfl (ix1 p)).trans ?_
  show ∑ k : Fin 16, E (reduces_S2000x16_S2000.lift (ix1 p) k) = _
  exact Finset.sum_congr rfl fun k _ => congrArg E (lift_ix p k)

/-- The shifted softmax chain of a block whose row p is z, at (p, q): the softmax of z at q. -/
theorem softmaxChain_apply (L : FVec Ideal S2000x16 .f32) (z : Fin 16 → EReal) (p : Fin 2000)
    (hL : ∀ j', L (ix2 p j') = z j') (q : Fin 16) :
    divf (Idealize.ShloMosaic.exp (subf L (rowMaxCol L))) (rowSumCol (Idealize.ShloMosaic.exp (subf L (rowMaxCol L)))) (ix2 p q)
      = Cert.Sage.softmax z q := by
  have hm : ∀ j', rowMaxCol L (ix2 p j') = Cert.Sage.rowmax z := fun j' => by
    rw [rowMaxCol_apply]
    unfold Cert.Sage.rowmax
    exact congrArg (fun f => (Finset.univ : Finset (Fin 16)).fold max (Ideal.ofBits .f32 0xFF800000#32) f) (funext hL)
  rw [divf_apply, rowSumCol_apply]
  unfold Cert.Sage.softmax
  refine congrArg₂ Ideal.div ?_ (Finset.sum_congr rfl fun j' _ => ?_)
  · show Ideal.exp (L (ix2 p q) - rowMaxCol L (ix2 p q)) = _
    rw [hL, hm]
  · show Ideal.exp (L (ix2 p j') - rowMaxCol L (ix2 p j')) = _
    rw [hL, hm]

/-- THE BODY AT AN ENTRY: entry (p, q) of what the body stores is the softmax, at q, of row p before the softmax. -/
theorem pay_apply (p : Fin 2000) (q : Fin 16) :
    k1_pay1 (F := Ideal) x2 x0 x1 x4 x3 (ix2 p q)
      = Cert.Sage.softmax (fun j' => ((x0 (ix2 p j') * x2 (ix2 p (0 : Fin 1))) + x3 (ix1 j'))
          + ∑ k : Fin 128, x1 (ix2 p k) * x4 (ix2 k j')) q := by
  rw [pay_eq]
  exact softmaxChain_apply (logits x0 x1 x2 x3 x4) _ p (fun j' => logits_apply x0 x1 x2 x3 x4 p j') q

end Payload

/-! ## From the blocks to the array -/

theorem hz2 : (![0, 0] : Fin 2 → Nat) = fun _ => 0 := funext fun a => by fin_cases a <;> rfl
theorem hz1 : (![0] : Fin 1 → Nat) = fun _ => 0 := funext fun a => by fin_cases a <;> rfl

/-- Where each window's block sits at grid point t: the three row-blocked inputs and the output at block row t, block
    column 0; the bias vector and the weight matrix whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The grid has 25 points. -/
theorem t_lt (t : Fin cfg1.N) : t.val < 25 := lt_of_lt_of_eq t.isLt N_1

/-- The array row that row p of the block at grid point t is: t · 2000 + p. -/
def row (t : Fin cfg1.N) (p : Fin 2000) : Fin 50000 := ⟨t.val * 2000 + p.val, by have := t_lt t; have := p.isLt; omega⟩

section Blocks

variable (V : (c : Dev nD) → (b : Ref sig .tc) → Buf (Elt Ideal) ((c : Thread nD τ).loc b)) (c : Dev nD) (t : Fin cfg1.N)

/-- Entry (p, q) of the aggregated-rows block is the array's entry (t · 2000 + p, q). -/
theorem iblk0_apply (p : Fin 2000) (q : Fin 16) :
    iblk1 V c 0 t (ix2 p q) = (V c main_v33 : S50000x16.Idx → EReal) (ix2 (row t p) q) := by
  obtain ⟨e0, e1, -⟩ := idx_facts t
  refine congrArg (V c main_v33 : S50000x16.Idx → EReal) (funext fun a => Fin.ext ?_)
  match a with
  | ⟨0, _⟩ => show win1_0.index t (0 : Fin 2) * 2000 + 1 * p.val = t.val * 2000 + p.val; omega
  | ⟨1, _⟩ => show win1_0.index t (1 : Fin 2) * 16 + 1 * q.val = q.val; omega

/-- Entry (p, k) of the hidden-rows block is the array's entry (t · 2000 + p, k). -/
theorem iblk1_apply (p : Fin 2000) (k : Fin 128) :
    iblk1 V c 1 t (ix2 p k) = (V c main_v23_0 : S50000x128.Idx → EReal) (ix2 (row t p) k) := by
  obtain ⟨-, -, e0, e1, -⟩ := idx_facts t
  refine congrArg (V c main_v23_0 : S50000x128.Idx → EReal) (funext fun a => Fin.ext ?_)
  match a with
  | ⟨0, _⟩ => show win1_1.index t (0 : Fin 2) * 2000 + 1 * p.val = t.val * 2000 + p.val; omega
  | ⟨1, _⟩ => show win1_1.index t (1 : Fin 2) * 128 + 1 * k.val = k.val; omega

/-- Entry (p, 0) of the factor block is the array's entry (t · 2000 + p, 0). -/
theorem iblk2_apply (p : Fin 2000) (u : Fin 1) :
    iblk1 V c 2 t (ix2 p u) = (V c main_v12 : S50000x1.Idx → EReal) (ix2 (row t p) u) := by
  obtain ⟨-, -, -, -, e0, e1, -⟩ := idx_facts t
  refine congrArg (V c main_v12 : S50000x1.Idx → EReal) (funext fun a => Fin.ext ?_)
  match a with
  | ⟨0, _⟩ => show win1_2.index t (0 : Fin 2) * 2000 + 1 * p.val = t.val * 2000 + p.val; omega
  | ⟨1, _⟩ => show win1_2.index t (1 : Fin 2) * 1 + 1 * u.val = u.val; omega

/-- The bias block is the whole bias vector. -/
theorem iblk3_apply (j : Fin 16) : iblk1 V c 3 t (ix1 j) = (V c main_arg6 : S16.Idx → EReal) (ix1 j) := by
  obtain ⟨-, -, -, -, -, -, e0, -⟩ := idx_facts t
  refine congrArg (V c main_arg6 : S16.Idx → EReal) (funext fun a => Fin.ext ?_)
  match a with
  | ⟨0, _⟩ => show win1_3.index t (0 : Fin 1) * 16 + 1 * j.val = j.val; omega

/-- The weight block is the whole weight matrix. -/
theorem iblk4_apply (k : Fin 128) (j : Fin 16) :
    iblk1 V c 4 t (ix2 k j) = (V c main_arg7 : S128x16.Idx → EReal) (ix2 k j) := by
  obtain ⟨-, -, -, -, -, -, -, e0, e1, -⟩ := idx_facts t
  refine congrArg (V c main_arg7 : S128x16.Idx → EReal) (funext fun a => Fin.ext ?_)
  match a with
  | ⟨0, _⟩ => show win1_4.index t (0 : Fin 2) * 128 + 1 * k.val = k.val; omega
  | ⟨1, _⟩ => show win1_4.index t (1 : Fin 2) * 16 + 1 * j.val = j.val; omega

/-- Entry (p, q) of the output block sits at the array's entry (t · 2000 + p, q). -/
theorem emb5 (p : Fin 2000) (q : Fin 16) :
    (((cfg1.win 5).blk t).view.emb (ix2 p q) : S50000x16.Idx) = ix2 (row t p) q := by
  obtain ⟨-, -, -, -, -, -, -, -, -, e0, e1⟩ := idx_facts t
  refine funext fun a => Fin.ext ?_
  match a with
  | ⟨0, _⟩ => show win1_5.index t (0 : Fin 2) * 2000 + 1 * p.val = t.val * 2000 + p.val; omega
  | ⟨1, _⟩ => show win1_5.index t (1 : Fin 2) * 16 + 1 * q.val = q.val; omega

/-- The array the region leaves, as one function of the arrays it finds: row n is the softmax of the pre-softmax row n. -/
abbrev G : S50000x16.Idx → EReal :=
  Cert.Sage.ofRC (Cert.Sage.Ok (V c main_v33) (V c main_v23_0) (V c main_v12) (V c main_arg6) (V c main_arg7))

/-- WHAT POINT t WRITES BACK is block t of that function. -/
theorem flushed_eq : (dat1 (F := Ideal) V c).flushed 5 t = ((cfg1.win 5).blk t).view.read (Elt Ideal) (G V c) := by
  show (cfg1.win 5).cut (grid1.coords t) ((dat1 (F := Ideal) V c).after 5 t) = _
  rw [after1_5]
  unfold out1_5
  rw [View.canon_unit_zero hz2]
  simp only [View.ld_unit_zero (S := S2000x16) hz2, View.ld_unit_zero (S := S2000x128) hz2,
    View.ld_unit_zero (S := S2000x1) hz2, View.ld_unit_zero (S := S128x16) hz2, View.ld_unit_zero (S := S16) hz1]
  refine funext fun (j : S2000x16.Idx) => ?_
  obtain ⟨p, q, rfl⟩ : ∃ (p : Fin 2000) (q : Fin 16), j = ix2 p q := ⟨j 0, j 1, eq_ix2 j⟩
  show k1_pay1 (F := Ideal) (iblk1 V c 2 t) (iblk1 V c 0 t) (iblk1 V c 1 t) (iblk1 V c 4 t) (iblk1 V c 3 t) (ix2 p q)
    = G V c (((cfg1.win 5).blk t).view.emb (ix2 p q))
  rw [emb5]
  refine (pay_apply (iblk1 V c 0 t) (iblk1 V c 1 t) (iblk1 V c 2 t) (iblk1 V c 3 t) (iblk1 V c 4 t) p q).trans ?_
  show _ = Cert.Sage.softmax (Cert.Sage.Lk (V c main_v33) (V c main_v23_0) (V c main_v12) (V c main_arg6) (V c main_arg7) (row t p)) q
  refine congrArg (fun z => Cert.Sage.softmax z q) (funext fun j' => ?_)
  unfold Cert.Sage.Lk
  rw [iblk0_apply, iblk2_apply, iblk3_apply]
  refine congrArg (fun z : EReal => _ + z) (Finset.sum_congr rfl fun k _ => ?_)
  rw [iblk1_apply, iblk4_apply]

end Blocks

/-- An index of the array is in point t's block iff each coordinate is in the block's range on its axis. -/
theorem mem_blk (t : Fin cfg1.N) (i : S50000x16.Idx) :
    i ∈ ((cfg1.win 5).blk t).view.set ↔ ∀ a : Fin 2, win1_5.index t a * S2000x16.size a ≤ (i a).val ∧ (i a).val < win1_5.index t a * S2000x16.size a + S2000x16.size a := by
  show i ∈ ((View.whole main_v34).slice (win1_5.rect t)).set ↔ _
  rw [View.set_slice_whole, Rect.mem_set_unit]
  exact Iff.rfl

/-- Every entry of the array is in some point's block: row r is in the block of point r / 2000. -/
theorem cover (i : S50000x16.Idx) : ∃ t : Fin cfg1.N, (cfg1.win 5).flush t = true ∧ i ∈ ((cfg1.win 5).blk t).view.set := by
  have hi0 : (i 0).val < 50000 := (i 0).isLt
  have hi1 : (i 1).val < 16 := (i 1).isLt
  have hN : cfg1.N = 25 := N_1
  have ht : (i 0).val / 2000 < cfg1.N := by rw [hN]; omega
  obtain ⟨-, -, -, -, -, -, -, -, -, e0, e1⟩ := idx_facts ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_5.index ⟨(i 0).val / 2000, ht⟩ (1 : Fin 2) * 16 ≤ (i 1).val ∧ (i 1).val < win1_5.index ⟨(i 0).val / 2000, ht⟩ (1 : Fin 2) * 16 + 16
    rw [e1]
    omega

/-- THE ARRAY THE REGION LEAVES: its output array ends holding, at row n, the softmax of the pre-softmax row n of the
    arrays the region finds. -/
theorem arr_out (V : (c : Dev nD) → (b : Ref sig .tc) → Buf (Elt Ideal) ((c : Thread nD τ).loc b)) (c : Dev nD) :
    (dat1 (F := Ideal) V c).arrAt 5 cfg1.N
      = Cert.Sage.ofRC (Cert.Sage.Ok (V c main_v33) (V c main_v23_0) (V c main_v12) (V c main_arg6) (V c main_arg7)) :=
  (dat1 (F := Ideal) V c).arrAt_eq_of_cover 5 (G V c) (fun t _ => flushed_eq V c t) cover

end Cert.KernelIdeal.Region1

end
-- ==== Proof.KHost.lean ====
/-
  The host stretches of the idealized kernel, read as values. Before the first region @main forms, from the edge array,
  the source column (row 0, a negative index wrapped by the node count), the target column (row 1), the clipped
  in-degree max (segment sum of ones) 1, its reciprocal as a column, and the segment sum of the gathered input rows;
  between the regions it forms the segment sum of the gathered projected rows. Each buffer the regions read is the
  corresponding term of the launch memory and of the arrays the first region leaves.
-/
import proofs.«141838_j8426725835327_2_alg».proof.Proof.Gen.KernelIdeal.Frame
import Idealize.ShloMosaic.Lib.StableHlo.Run
import Idealize.ShloMosaic.PureOps.Ideal
import Idealize.ShloMosaic.PureOps.Ideal.Laws

set_option maxRecDepth 16384

noncomputable section

namespace Cert.KernelIdeal.KHost

open Cert.KernelIdeal Cert.KernelIdeal.Gen
open Idealize.ShloMosaic Idealize.ShloMosaic.TcCoe Idealize.ShloMosaic.Tactic Idealize.ShloMosaic.StableHlo
open Idealize.SL.Sem

/-! ## The terms -/

/-- Row r of the edge array as a vector. -/
def edgeRow0 (ei : IVec S2x800000 32) : IVec S800000 32 :=
  shapeCast S800000 (extractStridedSlice S1x800000 ![0, 0] ei slices_S2x800000_S1x800000_0_0) shapeCasts_S1x800000_S800000

def edgeRow1 (ei : IVec S2x800000 32) : IVec S800000 32 :=
  shapeCast S800000 (extractStridedSlice S1x800000 ![1, 0] ei slices_S2x800000_S1x800000_1_0) shapeCasts_S1x800000_S800000

/-- The source column: a negative index wrapped by the node count, then set as a column. -/
def srcCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The target column. -/
def dstCol (d : IVec S800000 32) : IVec S800000x1 32 :=
  broadcastInDim S800000x1 ![0] bcast_S800000_S800000x1_0 d

/-- The clipped in-degree: the segment sum of ones, at least 1. -/
def degVec (d : IVec S800000 32) : FVec Ideal S50000 .f32 :=
  maximumf
    (Host.scatterAdd scatter_S50000_S800000x1_S800000_n_0_0_1
      (broadcastInDim S50000 ![] bcast_S_S50000 (constant S_ .f32 0x00000000#32)) (dstCol d)
      (broadcastInDim S800000 ![] bcast_S_S800000 (constant S_ .f32 0x3F800000#32)))
    (broadcastInDim S50000 ![] bcast_S_S50000 (constant S_ .f32 0x3F800000#32))

/-- The per-node factor 1 / degree, as a column. -/
def finvCol (d : IVec S800000 32) : FVec Ideal S50000x1 .f32 :=
  shapeCast S50000x1
    (Host.divf (broadcastInDim S50000 ![] bcast_S_S50000 (constant S_ .f32 0x3F800000#32)) (degVec d))
    shapeCasts_S50000_S50000x1

/-- The segment sum of the gathered rows, width 96. -/
def segRows96 (x : FVec Ideal S50000x96 .f32) (s d : IVec S800000 32) : FVec Ideal S50000x96 .f32 :=
  Host.scatterAdd scatter_S50000x96_S800000x1_S800000x96_1_0_0_1
    (broadcastInDim S50000x96 ![] bcast_S_S50000x96 (constant S_ .f32 0x00000000#32)) (dstCol d)
    (Host.gather gather_S50000x96_S800000x1_S800000x96_1_0_n_n_0_1_196 x (srcCol s))

/-- The segment sum of the gathered rows, width 16. -/
def segRows16 (p : FVec Ideal S50000x16 .f32) (s d : IVec S800000 32) : FVec Ideal S50000x16 .f32 :=
  Host.scatterAdd scatter_S50000x16_S800000x1_S800000x16_1_0_0_1
    (broadcastInDim S50000x16 ![] bcast_S_S50000x16 (constant S_ .f32 0x00000000#32)) (dstCol d)
    (Host.gather gather_S50000x16_S800000x1_S800000x16_1_0_n_n_0_1_116 p (srcCol s))

/-! ## The first stretch -/

variable (m : (ℓ : Loc nD τ sig) → Buf (Elt Ideal) ℓ) (ρ : Dev nD → PrngReg)

theorem W1_v1 (c : Dev nD) :
    (W1 m ρ c (Proc.devRef .tc main_v1) : S800000.Idx → BitVec 32) = edgeRow0 (m ((c : Thread nD τ).loc main_arg1)) := by
  dsimp only [W1, hostOps0]
  after_results
  unfold edgeRow0
  funext i
  show shapeCast S800000 _ _ i = shapeCast S800000 _ _ i
  rfl

theorem W1_v3 (c : Dev nD) :
    (W1 m ρ c (Proc.devRef .tc main_v3) : S800000.Idx → BitVec 32) = edgeRow1 (m ((c : Thread nD τ).loc main_arg1)) := by
  dsimp only [W1, hostOps0]
  after_results
  unfold edgeRow1
  funext i
  show shapeCast S800000 _ _ i = shapeCast S800000 _ _ i
  rfl

theorem V1_v12 (c : Dev nD) :
    (V1 m ρ c main_v12 : S50000x1.Idx → EReal) = finvCol (edgeRow1 (m ((c : Thread nD τ).loc main_arg1))) := by
  dsimp only [V1, W1, hostOps0]
  after_results
  unfold finvCol degVec dstCol edgeRow1
  funext i
  show shapeCast S50000x1 _ _ i = shapeCast S50000x1 _ _ i
  rfl

set_option maxHeartbeats 1600000 in
theorem V1_v22 (c : Dev nD) :
    (V1 m ρ c main_v22 : S50000x96.Idx → EReal)
      = segRows96 (m ((c : Thread nD τ).loc main_arg0)) (edgeRow0 (m ((c : Thread nD τ).loc main_arg1)))
          (edgeRow1 (m ((c : Thread nD τ).loc main_arg1))) := by
  dsimp only [V1, W1, hostOps0]
  after_results
  unfold segRows96 dstCol srcCol edgeRow0 edgeRow1
  funext i
  show Host.scatterAdd _ _ _ _ i = Host.scatterAdd _ _ _ _ i
  rfl

theorem V1_arg0 (c : Dev nD) : V1 m ρ c main_arg0 = m ((c : Thread nD τ).loc main_arg0) := by
  dsimp only [V1, W1, hostOps0]
  after_results

theorem V1_arg2 (c : Dev nD) : V1 m ρ c main_arg2 = m ((c : Thread nD τ).loc main_arg2) := by
  dsimp only [V1, W1, hostOps0]
  after_results

theorem V1_arg3 (c : Dev nD) : V1 m ρ c main_arg3 = m ((c : Thread nD τ).loc main_arg3) := by
  dsimp only [V1, W1, hostOps0]
  after_results

theorem V1_arg4 (c : Dev nD) : V1 m ρ c main_arg4 = m ((c : Thread nD τ).loc main_arg4) := by
  dsimp only [V1, W1, hostOps0]
  after_results

theorem V1_arg5 (c : Dev nD) : V1 m ρ c main_arg5 = m ((c : Thread nD τ).loc main_arg5) := by
  dsimp only [V1, W1, hostOps0]
  after_results

theorem W1_arg6 (c : Dev nD) : W1 m ρ c (Proc.devRef .tc main_arg6) = m ((c : Thread nD τ).loc main_arg6) := by
  dsimp only [W1, hostOps0]
  after_results

theorem W1_arg7 (c : Dev nD) : W1 m ρ c (Proc.devRef .tc main_arg7) = m ((c : Thread nD τ).loc main_arg7) := by
  dsimp only [W1, hostOps0]
  after_results

/-! ## The second stretch -/

theorem V3_v33 (c : Dev nD) :
    (V3 m ρ c main_v33 : S50000x16.Idx → EReal)
      = segRows16 (W2 m ρ c (Proc.devRef .tc main_v23_1)) (W2 m ρ c (Proc.devRef .tc main_v1))
          (W2 m ρ c (Proc.devRef .tc main_v3)) := by
  dsimp only [V3, W3, hostOps1]
  after_results
  unfold segRows16 dstCol srcCol
  funext i
  show Host.scatterAdd _ _ _ _ i = Host.scatterAdd _ _ _ _ i
  rfl

theorem V3_v23_0 (c : Dev nD) : V3 m ρ c main_v23_0 = W2 m ρ c (Proc.devRef .tc main_v23_0) := by
  dsimp only [V3, W3, hostOps1]
  after_results

theorem V3_v12 (c : Dev nD) : V3 m ρ c main_v12 = W2 m ρ c (Proc.devRef .tc main_v12) := by
  dsimp only [V3, W3, hostOps1]
  after_results

theorem V3_arg6 (c : Dev nD) : V3 m ρ c main_arg6 = W2 m ρ c (Proc.devRef .tc main_arg6) := by
  dsimp only [V3, W3, hostOps1]
  after_results

theorem V3_arg7 (c : Dev nD) : V3 m ρ c main_arg7 = W2 m ρ c (Proc.devRef .tc main_arg7) := by
  dsimp only [V3, W3, hostOps1]
  after_results

/-! ## Across the first region -/

theorem W2_v23_0 (c : Dev nD) : W2 m ρ c (Proc.devRef .tc main_v23_0) = (dat0 (V1 m ρ) c).arrAt 7 cfg0.N :=
  W2_arr m ρ c 7

theorem W2_v23_1 (c : Dev nD) : W2 m ρ c (Proc.devRef .tc main_v23_1) = (dat0 (V1 m ρ) c).arrAt 8 cfg0.N :=
  W2_arr m ρ c 8

theorem W2_v12 (c : Dev nD) : W2 m ρ c (Proc.devRef .tc main_v12) = V1 m ρ c main_v12 :=
  (W2_arr m ρ c 2).trans (((dat0 (V1 m ρ) c).arrAt_in 2 rfl _).trans (A_eq0 (V1 m ρ) c 2))

theorem W2_v1 (c : Dev nD) : W2 m ρ c (Proc.devRef .tc main_v1) = W1 m ρ c (Proc.devRef .tc main_v1) :=
  W2_of_ne m ρ c main_v1 (by decide)

theorem W2_v3 (c : Dev nD) : W2 m ρ c (Proc.devRef .tc main_v3) = W1 m ρ c (Proc.devRef .tc main_v3) :=
  W2_of_ne m ρ c main_v3 (by decide)

theorem W2_arg6 (c : Dev nD) : W2 m ρ c (Proc.devRef .tc main_arg6) = W1 m ρ c (Proc.devRef .tc main_arg6) :=
  W2_of_ne m ρ c main_arg6 (by decide)

theorem W2_arg7 (c : Dev nD) : W2 m ρ c (Proc.devRef .tc main_arg7) = W1 m ρ c (Proc.devRef .tc main_arg7) :=
  W2_of_ne m ρ c main_arg7 (by decide)

end Cert.KernelIdeal.KHost

end
-- ==== Proof.SegSum.lean ====
/-
  A segment sum of gathered rows read at an index: the scatter-add of the rows M[src e] at the targets dst e, into a
  zero matrix, holds at (n, f) the sum over the edges whose target is n of M at (source of e, f). An update element
  (e, f') lands on (n, f) exactly when the target of e is n and f' = f, so the elements landing on (n, f) are in
  bijection with the edges into n.
-/
import proofs.«141838_j8426725835327_2_alg».proof.Proof.Spec

noncomputable section

open scoped BigOperators

namespace Cert.Sage

open Idealize.ShloMosaic Idealize.ShloMosaic.ValueIdx Idealize.ShloMosaic.RowTake

theorem seg_apply {Fw : ℕ} (wfg) (wfs) (H Z : (⟨2, ![50000, Fw]⟩ : Shape).Idx → EReal) (hZ : ∀ i, Z i = 0)
    (src dst : IVec EIdx 32) (n : Fin 50000) (f : Fin Fw) :
    Ideal.hostScatterAdd (rowScatter 50000 800000 Fw wfs) Z dst (Host.gather (rowGather 50000 800000 Fw wfg) H src) (ix2 n f)
      = seg src dst (fun a b => H (ix2 a b)) n f := by
  unfold Ideal.hostScatterAdd seg into
  rw [hZ, zero_add]
  refine Finset.sum_bij' (fun j _ => (j 0 : Fin 800000)) (fun e _ => ix2 e f) ?_ ?_ ?_ ?_ ?_
  · intro j hj
    obtain ⟨e, f', rfl⟩ : ∃ (e : Fin 800000) (f' : Fin Fw), j = ix2 e f' := ⟨j 0, j 1, eq_ix2 j⟩
    have h := (rowScatter_resultIdx_eq_some wfs dst e f' n f).mp (Finset.mem_filter.mp hj).2
    exact Finset.mem_filter.mpr ⟨Finset.mem_univ _, h.1⟩
  · intro e he
    exact Finset.mem_filter.mpr ⟨Finset.mem_univ _,
      (rowScatter_resultIdx_eq_some wfs dst e f n f).mpr ⟨(Finset.mem_filter.mp he).2, rfl⟩⟩
  · intro j hj
    obtain ⟨e, f', rfl⟩ : ∃ (e : Fin 800000) (f' : Fin Fw), j = ix2 e f' := ⟨j 0, j 1, eq_ix2 j⟩
    have h := (rowScatter_resultIdx_eq_some wfs dst e f' n f).mp (Finset.mem_filter.mp hj).2
    rw [h.2]; rfl
  · intro e he
    rfl
  · intro j hj
    obtain ⟨e, f', rfl⟩ : ∃ (e : Fin 800000) (f' : Fin Fw), j = ix2 e f' := ⟨j 0, j 1, eq_ix2 j⟩
    have h := (rowScatter_resultIdx_eq_some wfs dst e f' n f).mp (Finset.mem_filter.mp hj).2
    rw [rowGather_apply (Nat.succ_pos _) wfg H src e f', h.2]
    rfl

end Cert.Sage

end
-- ==== Proof.Degree.lean ====
/-
  The clipped in-degree of a node is a nonzero real number.

  The in-degree array is a scatter by addition, into an array of zeros, of an array of ones: its entry at a node is
  0 plus the sum of the ones that land on that node, that is, the NUMBER of updates landing there — a natural number,
  whichever updates those are. Clipping it below by 1 gives the larger of that number and 1: a real number, at least
  1, so not zero. (The float words used are those of 0.0, which denotes 0, and of 1.0 = 2^(127 - 127), which
  denotes 1.)
-/
import proofs.«141838_j8426725835327_2_alg».proof.Proof.Spec

noncomputable section

open scoped BigOperators

namespace Cert.Sage

open Idealize.ShloMosaic

/-- The scatter of a vector of E updates into a vector of N entries, each update at the entry its index names. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The 32-bit float word of 1.0 (sign 0, exponent 127, significand 0) denotes 1. -/
theorem ofBits_one_f32 : Ideal.ofBits .f32 0x3F800000#32 = 1 := by
  -- a normal number: sign +, significand 2^23 + 0, exponent 127 - bias - 23 with bias 2^7 - 1 = 127
  have h : Ideal.ofBits .f32 0x3F800000#32
      = (((1 : ℝ) * (2 ^ 23 + 0 : ℕ) * (2 : ℝ) ^ ((127 : Int) - (2 ^ (8 - 1) - 1) - 23) : ℝ) : EReal) := by
    simp [Ideal.ofBits, Ideal.ieee]
  rw [h]
  norm_num

/-- The larger of a natural number and 1, on the extended reals, is a nonzero real. -/
theorem max_natCast_one (n : ℕ) : ∃ r : ℝ, r ≠ 0 ∧ max (n : EReal) 1 = (r : EReal) :=
  ⟨max (n : ℝ) 1, ne_of_gt (lt_of_lt_of_le one_pos (le_max_right _ _)),
    (EReal.coe_strictMono.monotone.map_max (a := (n : ℝ)) (b := 1)).symm⟩

/-- A scatter by addition of ones into zeros, clipped below by 1, is a nonzero real at every entry: the entry is the
    number of updates landing there. -/
theorem deg_real {s si su : Shape} (d : ScatterDims s si su) {w : Nat} (Z : s.Idx → EReal) (O : su.Idx → EReal)
    (hZ : ∀ i, Z i = 0) (hO : ∀ i, O i = 1) (idx : IVec si w) (i : s.Idx) :
    ∃ r : ℝ, r ≠ 0 ∧ max (Ideal.hostScatterAdd d Z idx O i) 1 = (r : EReal) := by
  unfold Ideal.hostScatterAdd
  rw [hZ i, zero_add, Finset.sum_congr rfl (fun j _ => hO j), Finset.sum_const, nsmul_one]
  exact max_natCast_one _

end Cert.Sage

end
-- ==== Proof.KGlue.lean ====
/-
  The kernel's host terms meet the specification: at an index, the segment sums are the specification's sums over
  the edges into a node, the factor column is 1 / (clipped in-degree), so the hidden rows, the projected rows and the
  output rows the two regions write are the specification's factor-last forms.
-/
import proofs.«141838_j8426725835327_2_alg».proof.Proof.KHost
import proofs.«141838_j8426725835327_2_alg».proof.Proof.KForm
import proofs.«141838_j8426725835327_2_alg».proof.Proof.SegSum
import proofs.«141838_j8426725835327_2_alg».proof.Proof.Degree
import proofs.«141838_j8426725835327_2_alg».proof.Proof.LibLayoutReads
import proofs.«141838_j8426725835327_2_alg».proof.Proof.LibColumn

set_option maxRecDepth 16384

noncomputable section

open scoped BigOperators

namespace Cert.KernelIdeal.KGlue

open Cert.KernelIdeal Cert.KernelIdeal.Gen Cert.KernelIdeal.KHost
open Idealize.ShloMosaic Idealize.ShloMosaic.ValueIdx Idealize.ShloMosaic.LayoutReads Idealize.ShloMosaic.RowTake

/-- The clipped in-degree of node n. -/
def Dk (d : IVec S800000 32) (n : Fin 50000) : EReal := degVec d (ix1 n)

theorem zero96 (j : S50000x96.Idx) :
    (broadcastInDim S50000x96 ![] bcast_S_S50000x96 (constant (F := Ideal) S_ .f32 0x00000000#32) : S50000x96.Idx → EReal) j = 0 := by
  rw [bcast_scalar_apply, constant_apply, Ideal.ofBits_zero_f32]

theorem rec_scatter96 : scatter_S50000x96_S800000x1_S800000x96_1_0_0_1
    = rowScatter 50000 800000 96 scatter_S50000x96_S800000x1_S800000x96_1_0_0_1_wf := rfl

theorem rec_gather96 : gather_S50000x96_S800000x1_S800000x96_1_0_n_n_0_1_196
    = rowGather 50000 800000 96 gather_S50000x96_S800000x1_S800000x96_1_0_n_n_0_1_196_wf := rfl

theorem scatterAdd_ideal {s si su : Shape} (d : ScatterDims s si su) {w : Nat} (x : FVec Ideal s .f32) (idx : IVec si w)
    (upd : FVec Ideal su .f32) : Host.scatterAdd d x idx upd = Ideal.hostScatterAdd d x idx upd := rfl

theorem zero16 (j : S50000x16.Idx) :
    (broadcastInDim S50000x16 ![] bcast_S_S50000x16 (constant (F := Ideal) S_ .f32 0x00000000#32) : S50000x16.Idx → EReal) j = 0 := by
  rw [bcast_scalar_apply, constant_apply, Ideal.ofBits_zero_f32]

theorem rec_scatter16 : scatter_S50000x16_S800000x1_S800000x16_1_0_0_1
    = rowScatter 50000 800000 16 scatter_S50000x16_S800000x1_S800000x16_1_0_0_1_wf := rfl

theorem rec_gather16 : gather_S50000x16_S800000x1_S800000x16_1_0_n_n_0_1_116
    = rowGather 50000 800000 16 gather_S50000x16_S800000x1_S800000x16_1_0_n_n_0_1_116_wf := rfl

/-- The segment sum of the gathered input rows, at (n, i). -/
theorem seg96_apply (x : FVec Ideal S50000x96 .f32) (s d : IVec S800000 32) (n : Fin 50000) (i : Fin 96) :
    segRows96 x s d (ix2 n i) = Cert.Sage.agg1 (srcCol s) (dstCol d) x n i := by
  rw [segRows96, Cert.Sage.agg1, scatterAdd_ideal, rec_scatter96, rec_gather96]
  exact Cert.Sage.seg_apply (Fw := 96) _ _ x _ zero96 (srcCol s) (dstCol d) n i

/-- The segment sum of gathered rows of width 16, at (n, j). -/
theorem seg16_apply (p : FVec Ideal S50000x16 .f32) (s d : IVec S800000 32) (n : Fin 50000) (j : Fin 16) :
    segRows16 p s d (ix2 n j) = Cert.Sage.seg (srcCol s) (dstCol d) (fun a b => p (ix2 a b)) n j := by
  rw [segRows16, scatterAdd_ideal, rec_scatter16, rec_gather16]
  exact Cert.Sage.seg_apply (Fw := 16) _ _ p _ zero16 (srcCol s) (dstCol d) n j

/-- The clipped count of a scatter-add of ones into zeros is a nonzero real (the float-typed spelling). -/
theorem deg_real_f32 {s si su : Shape} (dd : ScatterDims s si su) {w : Nat} (Z : FVec Ideal s .f32) (O : FVec Ideal su .f32)
    (hZ : ∀ i, Z i = 0) (hO : ∀ i, O i = 1) (idx : IVec si w) (i : s.Idx) :
    ∃ r : ℝ, r ≠ 0 ∧ @max (Ideal .f32) _ (Ideal.hostScatterAdd dd Z idx O i) 1 = (r : EReal) :=
  Cert.Sage.deg_real dd Z O hZ hO idx i

theorem zeroN (i : S50000.Idx) :
    broadcastInDim S50000 ![] bcast_S_S50000 (constant (F := Ideal) S_ .f32 0x00000000#32) i = (0 : Ideal .f32) := by
  rw [bcast_scalar_apply, constant_apply, Ideal.ofBits_zero_f32]

theorem oneE (i : S800000.Idx) :
    broadcastInDim S800000 ![] bcast_S_S800000 (constant (F := Ideal) S_ .f32 0x3F800000#32) i = (1 : Ideal .f32) := by
  rw [bcast_scalar_apply, constant_apply, Cert.Sage.ofBits_one_f32]

/-- The clipped in-degree is a nonzero real. -/
theorem Dk_real (d : IVec S800000 32) (n : Fin 50000) : ∃ r : ℝ, r ≠ 0 ∧ Dk d n = (r : EReal) := by
  rw [Dk, degVec, maximumf_apply, scatterAdd_ideal, bcast_scalar_apply, constant_apply, Cert.Sage.ofBits_one_f32]
  exact deg_real_f32 scatter_S50000_S800000x1_S800000_n_0_0_1 _ _ zeroN oneE (dstCol d) (ix1 n)

/-- The host quotient at an index. -/
theorem hostDivf_apply {sh : Shape} (a b : FVec Ideal sh .f32) (i : sh.Idx) : Host.divf a b i = Ideal.div (a i) (b i) := rfl

/-- The factor column at node n is 1 / (clipped in-degree of n). -/
theorem finv_apply (d : IVec S800000 32) (n : Fin 50000) :
    finvCol d (ix2 n (0 : Fin 1)) = Ideal.div 1 (Dk d n) := by
  rw [finvCol, Cert.Column.shapeCast_a_a1_apply, hostDivf_apply, bcast_scalar_apply, constant_apply,
    Cert.Sage.ofBits_one_f32, Dk]

section

variable (x : FVec Ideal S50000x96 .f32) (W1l : FVec Ideal S96x128 .f32) (b1 : FVec Ideal S128 .f32)
  (W1r : FVec Ideal S96x128 .f32) (W2l : FVec Ideal S128x16 .f32) (b2 : FVec Ideal S16 .f32)
  (W2r : FVec Ideal S128x16 .f32) (s d : IVec S800000 32)

/-- The hidden rows the first region writes are the specification's factor-last hidden rows. -/
theorem Hk_eq (n : Fin 50000) (k : Fin 128) :
    Cert.Sage.Hk (segRows96 x s d) x (finvCol d) W1l b1 W1r n k
      = Cert.Sage.Khid (srcCol s) (dstCol d) (Dk d) x W1l b1 W1r n k := by
  rw [Cert.Sage.Hk, Cert.Sage.Khid]
  simp only [seg96_apply, finv_apply]

/-- The projected rows likewise. -/
theorem Pk_eq (n : Fin 50000) (j : Fin 16) :
    Cert.Sage.Pk (segRows96 x s d) x (finvCol d) W1l b1 W1r W2l n j
      = Cert.Sage.Kproj (srcCol s) (dstCol d) (Dk d) x W1l b1 W1r W2l n j := by
  rw [Cert.Sage.Pk, Cert.Sage.Kproj]
  simp only [Hk_eq]

/-- The rows the second region writes, from what the first region and the second host stretch leave, are the
    specification's factor-last output. -/
theorem Ok_eq (n : Fin 50000) (j : Fin 16) :
    Cert.Sage.Ok (segRows16 (Cert.Sage.ofRC (Cert.Sage.Pk (segRows96 x s d) x (finvCol d) W1l b1 W1r W2l)) s d)
        (Cert.Sage.ofRC (Cert.Sage.Hk (segRows96 x s d) x (finvCol d) W1l b1 W1r)) (finvCol d) b2 W2r n j
      = Cert.Sage.Kout (srcCol s) (dstCol d) (Dk d) x W1l b1 W1r W2l b2 W2r n j := by
  rw [Cert.Sage.Ok, Cert.Sage.Kout]
  refine congrArg (fun z => Cert.Sage.softmax z j) (funext fun j' => ?_)
  rw [Cert.Sage.Lk, Cert.Sage.Klogit, seg16_apply, finv_apply]
  simp only [Cert.Sage.ofRC_ix2, Hk_eq, Pk_eq]

end

end Cert.KernelIdeal.KGlue

end
-- ==== Proof.KValue.lean ====
/-
  What the idealized kernel's result array holds after the run: through the second region's write-backs, the second
  host stretch, the first region's write-backs and the first host stretch, it is the specification's factor-last
  output of the launch memory's arguments, index by index.
-/
import proofs.«141838_j8426725835327_2_alg».proof.Proof.KRun
import proofs.«141838_j8426725835327_2_alg».proof.Proof.Region0
import proofs.«141838_j8426725835327_2_alg».proof.Proof.Region1
import proofs.«141838_j8426725835327_2_alg».proof.Proof.KGlue

set_option maxRecDepth 16384

noncomputable section

namespace Cert.KernelIdeal.KValue

open Cert.KernelIdeal Cert.KernelIdeal.Gen Cert.KernelIdeal.KHost Cert.KernelIdeal.KGlue
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The specification's output at the launch memory's arguments. -/
def out (c : Dev nD) : S50000x16.Idx → EReal :=
  Cert.Sage.ofRC (Cert.Sage.Kout (srcCol (edgeRow0 (m ((c : Thread nD τ).loc main_arg1))))
    (dstCol (edgeRow1 (m ((c : Thread nD τ).loc main_arg1)))) (Dk (edgeRow1 (m ((c : Thread nD τ).loc main_arg1))))
    (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)))

theorem result_eq (c : Dev nD) : (W4 m ρ c (Proc.devRef .tc main_v34) : S50000x16.Idx → EReal) = out m c := by
  have h4 : W4 m ρ c (Proc.devRef .tc main_v34) = (dat1 (V3 m ρ) c).arrAt 5 cfg1.N := W4_arr m ρ c 5
  rw [h4, Region1.arr_out (V3 m ρ) c, V3_v33, V3_v23_0, V3_v12, V3_arg6, V3_arg7, W2_v23_1, W2_v23_0, W2_v12, W2_v1,
    W2_v3, W2_arg6, W2_arg7, W1_v1, W1_v3, W1_arg6, W1_arg7, Region0.arr_hidden, Region0.arr_proj, V1_v22, V1_v12,
    V1_arg0, V1_arg2, V1_arg3, V1_arg4, V1_arg5]
  funext i
  obtain ⟨n, j, rfl⟩ : ∃ (n : Fin 50000) (j : Fin 16), i = ix2 n j := ⟨i 0, i 1, eq_ix2 i⟩
  rw [out, Cert.Sage.ofRC_ix2, Cert.Sage.ofRC_ix2, Ok_eq]

end Cert.KernelIdeal.KValue

end
-- ==== Proof.RefValue.lean ====
/-
  The reference program's result read at an index. Stage by stage, each array the reference computes is read at
  (node, column): the scatter-add of gathered rows is a segment sum; the quotient by the degree column is the mean;
  the two products with the weights, the bias and the rectifier give the hidden rows; the same again gives the
  logits; the maximum along a row is a fold of max over its sixteen columns, and taking the maximum with minus
  infinity's word once more changes nothing; the exponentials over their row sum are the softmax. The result at
  (n, j) is the specification's mean-first output, at the source column, the target column and the degree the
  reference itself computes.
-/
import proofs.«141838_j8426725835327_2_alg».proof.Proof.Gen.ReferenceIdeal.Read
import proofs.«141838_j8426725835327_2_alg».proof.Proof.SegSum
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

variable [Cert.ReferenceIdeal.Facts]

/-- The source indices, wrapped (a negative one moved up by the node count), as a column. -/
def src (ei : IVec S2x800000 32) : IVec S800000x1 32 := Read.val_main_v9 (F := Ideal) ei

/-- The target indices as a column. -/
def dst (ei : IVec S2x800000 32) : IVec S800000x1 32 := Read.val_main_v12 (F := Ideal) ei

/-- The in-degree of a node, at least one. -/
def deg (ei : IVec S2x800000 32) (n : Fin 50000) : EReal := Read.val_main_v19 (F := Ideal) ei (ix1 n)

/-! The second layer recomputes the source column, the target column and the degree: the same terms. -/

theorem v35_eq (ei : IVec S2x800000 32) : val_main_v35 (F := Ideal) ei = src ei := rfl
theorem v38_eq (ei : IVec S2x800000 32) : val_main_v38 (F := Ideal) ei = dst ei := rfl
theorem v45_eq (ei : IVec S2x800000 32) : val_main_v45 (F := Ideal) ei = val_main_v19 (F := Ideal) ei := rfl

/-- The zero matrix the first segment sum starts from. -/
theorem v11_zero (i : S50000x96.Idx) : val_main_v11 (F := Ideal) i = 0 := by
  rw [val_main_v11_apply, val_main_cst_apply, Ideal.ofBits_def, Ideal.ofBits_zero_f32]

/-- The zero matrix the second segment sum starts from. -/
theorem v37_zero (i : S50000x128.Idx) : val_main_v37 (F := Ideal) i = 0 := by
  rw [val_main_v37_apply, val_main_cst_6_apply, Ideal.ofBits_def, Ideal.ofBits_zero_f32]

/-! The reference's gather and scatter dimension records are the row gather's and the row scatter's at the literal sizes. -/

theorem gather96_eq : gather_S50000x96_S800000x1_S800000x96_1_0_n_n_0_1_196
    = RowTake.rowGather 50000 800000 96 Facts₀.gather_S50000x96_S800000x1_S800000x96_1_0_n_n_0_1_196_wf := rfl
theorem scatter96_eq : scatter_S50000x96_S800000x1_S800000x96_1_0_0_1
    = RowTake.rowScatter 50000 800000 96 Facts₀.scatter_S50000x96_S800000x1_S800000x96_1_0_0_1_wf := rfl
theorem gather128_eq : gather_S50000x128_S800000x1_S800000x128_1_0_n_n_0_1_1128
    = RowTake.rowGather 50000 800000 128 Facts₀.gather_S50000x128_S800000x1_S800000x128_1_0_n_n_0_1_1128_wf := rfl
theorem scatter128_eq : scatter_S50000x128_S800000x1_S800000x128_1_0_0_1
    = RowTake.rowScatter 50000 800000 128 Facts₀.scatter_S50000x128_S800000x1_S800000x128_1_0_0_1_wf := rfl

/-- The first scatter-add of gathered rows is the segment sum of the input rows. -/
theorem v13_apply (x : (⟨S50000x96, .f32⟩ : BufTy).Contents (Elt Ideal)) (ei : (⟨S2x800000, .i32⟩ : BufTy).Contents (Elt Ideal))
    (n : Fin 50000) (i : Fin 96) :
    val_main_v13 (F := Ideal) x ei (ix2 n i) = Cert.Sage.agg1 (src ei) (dst ei) x n i := by
  rw [val_main_v13, val_main_v10, Host.scatterAdd, Ideal.hostScatterAdd_def, gather96_eq, scatter96_eq, Cert.Sage.agg1, src, dst]
  exact Cert.Sage.seg_apply (Fw := 96) _ _ x _ v11_zero _ _ n i

/-- The second scatter-add of gathered rows is the segment sum of the rows it gathers from. -/
theorem v39_apply (x : (⟨S50000x96, .f32⟩ : BufTy).Contents (Elt Ideal)) (ei : (⟨S2x800000, .i32⟩ : BufTy).Contents (Elt Ideal))
    (W1l : (⟨S96x128, .f32⟩ : BufTy).Contents (Elt Ideal)) (b1 : (⟨S128, .f32⟩ : BufTy).Contents (Elt Ideal))
    (W1r : (⟨S96x128, .f32⟩ : BufTy).Contents (Elt Ideal)) (n : Fin 50000) (k : Fin 128) :
    val_main_v39 (F := Ideal) x ei W1l b1 W1r (ix2 n k)
      = Cert.Sage.seg (src ei) (dst ei) (fun a b => val_main_v29 (F := Ideal) x ei W1l b1 W1r (ix2 a b)) n k := by
  rw [val_main_v39, val_main_v36, Host.scatterAdd, Ideal.hostScatterAdd_def, gather128_eq, scatter128_eq, v38_eq, v35_eq]
  exact Cert.Sage.seg_apply (Fw := 128) _ _ (val_main_v29 (F := Ideal) x ei W1l b1 W1r) _ v37_zero _ _ n k

/-- A maximum taken along the rows of a matrix, read at a row: the fold of max over the row's columns, from the initial
    value. -/
theorem hostReduce_max_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal)
    (init : (⟨0, ![]⟩ : Shape).Idx → EReal) (hu : 0 < (⟨0, ![]⟩ : Shape).numel) (n : Fin a) :
    Host.reduce (FloatOps.maximumf (F := Ideal) (φ := .f32)) x init h' hu (ix1 n)
      = (Finset.univ : Finset (Fin b)).fold max (init (Shape.Idx.first hu)) (fun k => x (ix2 n k)) := by
  rw [Host.reduce_eq_fold_single _ _ _ h' h]
  refine Finset.fold_congr fun k _ => ?_
  show x (h.lift (ix1 n) k) = x (ix2 n k)
  congr 1
  funext c
  refine Fin.ext ?_
  match c with
  | ⟨0, _⟩ => rfl
  | ⟨1, _⟩ => rfl

section Stages

variable (x : (⟨S50000x96, .f32⟩ : BufTy).Contents (Elt Ideal)) (ei : (⟨S2x800000, .i32⟩ : BufTy).Contents (Elt Ideal))
  (W1l : (⟨S96x128, .f32⟩ : BufTy).Contents (Elt Ideal)) (b1 : (⟨S128, .f32⟩ : BufTy).Contents (Elt Ideal))
  (W1r : (⟨S96x128, .f32⟩ : BufTy).Contents (Elt Ideal)) (W2l : (⟨S128x16, .f32⟩ : BufTy).Contents (Elt Ideal))
  (b2 : (⟨S16, .f32⟩ : BufTy).Contents (Elt Ideal)) (W2r : (⟨S128x16, .f32⟩ : BufTy).Contents (Elt Ideal))

/-! ## Layer 1 -/

/-- The degree set beside the 96 input columns. -/
theorem v21_apply (n : Fin 50000) (i : Fin 96) : val_main_v21 (F := Ideal) ei (ix2 n i) = deg ei n := by
  rw [val_main_v21_apply, val_main_v20_apply]
  have e : idx_main_v20 (idx_main_v21 (ix2 n i)) = ix1 n :=
    funext fun a => Fin.ext (by match a with | ⟨0, _⟩ => rfl)
  rw [e, deg]

/-- The mean of the input rows: the segment sum over the degree. -/
theorem v22_apply (n : Fin 50000) (i : Fin 96) :
    val_main_v22 (F := Ideal) x ei (ix2 n i) = Ideal.div (Cert.Sage.agg1 (src ei) (dst ei) x n i) (deg ei n) := by
  rw [val_main_v22_apply, Ideal.hostDivf_def, v13_apply, v21_apply]

/-- The mean times the left weight. -/
theorem v23_apply (n : Fin 50000) (k : Fin 128) :
    val_main_v23 (F := Ideal) x ei W1l (ix2 n k)
      = ∑ i : Fin 96, Ideal.div (Cert.Sage.agg1 (src ei) (dst ei) x n i) (deg ei n) * W1l (ix2 i k) := by
  rw [val_main_v23_apply]
  refine Finset.sum_congr rfl fun i _ => ?_
  have el : lidx_main_v23 (ix2 n k) i = ix2 n i :=
    funext fun a => Fin.ext (by match a with | ⟨0, _⟩ => rfl | ⟨1, _⟩ => rfl)
  have er : ridx_main_v23 (ix2 n k) i = ix2 i k :=
    funext fun a => Fin.ext (by match a with | ⟨0, _⟩ => rfl | ⟨1, _⟩ => rfl)
  rw [el, er, v22_apply]

/-- The first bias set beside every node. -/
theorem v25_apply (n : Fin 50000) (k : Fin 128) : val_main_v25 (F := Ideal) b1 (ix2 n k) = b1 (ix1 k) := by
  rw [val_main_v25_apply, val_main_v24_apply]
  have e : idx_main_v24 (idx_main_v25 (ix2 n k)) = ix1 k :=
    funext fun a => Fin.ext (by match a with | ⟨0, _⟩ => rfl)
  rw [e]

/-- The input rows times the right weight. -/
theorem v27_apply (n : Fin 50000) (k : Fin 128) :
    val_main_v27 (F := Ideal) x W1r (ix2 n k) = ∑ i : Fin 96, x (ix2 n i) * W1r (ix2 i k) := by
  rw [val_main_v27_apply]
  refine Finset.sum_congr rfl fun i _ => ?_
  have el : lidx_main_v27 (ix2 n k) i = ix2 n i :=
    funext fun a => Fin.ext (by match a with | ⟨0, _⟩ => rfl | ⟨1, _⟩ => rfl)
  have er : ridx_main_v27 (ix2 n k) i = ix2 i k :=
    funext fun a => Fin.ext (by match a with | ⟨0, _⟩ => rfl | ⟨1, _⟩ => rfl)
  rw [el, er]

/-- The zero the rectifier compares with. -/
theorem call0_v0_zero (i : S50000x128.Idx) : val_main_call0_v0 (F := Ideal) i = 0 := by
  rw [val_main_call0_v0_apply, val_main_call0_cst_apply, Ideal.ofBits_def, Ideal.ofBits_zero_f32]

/-- The hidden rows. -/
theorem v29_apply (n : Fin 50000) (k : Fin 128) :
    val_main_v29 (F := Ideal) x ei W1l b1 W1r (ix2 n k)
      = Cert.Sage.Rhid (src ei) (dst ei) (deg ei) x W1l b1 W1r n k := by
  rw [val_main_v29_apply, val_main_v28_apply, val_main_v26_apply, v23_apply, v25_apply, v27_apply, call0_v0_zero,
    Ideal.maximumf_def, Ideal.addf_def, Ideal.addf_def, Cert.Sage.Rhid]

/-! ## Layer 2 -/

/-- The segment sum of the hidden rows. -/
theorem v39_hid (n : Fin 50000) (k : Fin 128) :
    val_main_v39 (F := Ideal) x ei W1l b1 W1r (ix2 n k)
      = Cert.Sage.seg (src ei) (dst ei) (Cert.Sage.Rhid (src ei) (dst ei) (deg ei) x W1l b1 W1r) n k := by
  have e : (fun a b => val_main_v29 (F := Ideal) x ei W1l b1 W1r (ix2 a b))
      = Cert.Sage.Rhid (src ei) (dst ei) (deg ei) x W1l b1 W1r :=
    funext fun a => funext fun b => v29_apply x ei W1l b1 W1r a b
  rw [v39_apply, e]

/-- The degree set beside the 128 hidden columns. -/
theorem v47_apply (n : Fin 50000) (k : Fin 128) : val_main_v47 (F := Ideal) ei (ix2 n k) = deg ei n := by
  rw [val_main_v47_apply, val_main_v46_apply, v45_eq]
  have e : idx_main_v46 (idx_main_v47 (ix2 n k)) = ix1 n :=
    funext fun a => Fin.ext (by match a with | ⟨0, _⟩ => rfl)
  rw [e, deg]

/-- The mean of the hidden rows. -/
theorem v48_apply (n : Fin 50000) (k : Fin 128) :
    val_main_v48 (F := Ideal) x ei W1l b1 W1r (ix2 n k)
      = Ideal.div (Cert.Sage.seg (src ei) (dst ei) (Cert.Sage.Rhid (src ei) (dst ei) (deg ei) x W1l b1 W1r) n k) (deg ei n) := by
  rw [val_main_v48_apply, Ideal.hostDivf_def, v39_hid, v47_apply]

/-- The mean of the hidden rows times the left weight. -/
theorem v49_apply (n : Fin 50000) (j : Fin 16) :
    val_main_v49 (F := Ideal) x ei W1l b1 W1r W2l (ix2 n j)
      = ∑ k : Fin 128, Ideal.div (Cert.Sage.seg (src ei) (dst ei) (Cert.Sage.Rhid (src ei) (dst ei) (deg ei) x W1l b1 W1r) n k) (deg ei n)
          * W2l (ix2 k j) := by
  rw [val_main_v49_apply]
  refine Finset.sum_congr rfl fun k _ => ?_
  have el : lidx_main_v49 (ix2 n j) k = ix2 n k :=
    funext fun a => Fin.ext (by match a with | ⟨0, _⟩ => rfl | ⟨1, _⟩ => rfl)
  have er : ridx_main_v49 (ix2 n j) k = ix2 k j :=
    funext fun a => Fin.ext (by match a with | ⟨0, _⟩ => rfl | ⟨1, _⟩ => rfl)
  rw [el, er, v48_apply]

/-- The second bias set beside every node. -/
theorem v51_apply (n : Fin 50000) (j : Fin 16) : val_main_v51 (F := Ideal) b2 (ix2 n j) = b2 (ix1 j) := by
  rw [val_main_v51_apply, val_main_v50_apply]
  have e : idx_main_v50 (idx_main_v51 (ix2 n j)) = ix1 j :=
    funext fun a => Fin.ext (by match a with | ⟨0, _⟩ => rfl)
  rw [e]

/-- The hidden rows times the right weight. -/
theorem v53_apply (n : Fin 50000) (j : Fin 16) :
    val_main_v53 (F := Ideal) x ei W1l b1 W1r W2r (ix2 n j)
      = ∑ k : Fin 128, Cert.Sage.Rhid (src ei) (dst ei) (deg ei) x W1l b1 W1r n k * W2r (ix2 k j) := by
  rw [val_main_v53_apply]
  refine Finset.sum_congr rfl fun k _ => ?_
  have el : lidx_main_v53 (ix2 n j) k = ix2 n k :=
    funext fun a => Fin.ext (by match a with | ⟨0, _⟩ => rfl | ⟨1, _⟩ => rfl)
  have er : ridx_main_v53 (ix2 n j) k = ix2 k j :=
    funext fun a => Fin.ext (by match a with | ⟨0, _⟩ => rfl | ⟨1, _⟩ => rfl)
  rw [el, er, v29_apply]

/-- The logits. -/
theorem v54_apply (n : Fin 50000) (j : Fin 16) :
    val_main_v54 (F := Ideal) x ei W1l b1 W1r W2l b2 W2r (ix2 n j)
      = Cert.Sage.Rlogit (src ei) (dst ei) (deg ei) x W1l b1 W1r W2l b2 W2r n j := by
  rw [val_main_v54_apply, val_main_v52_apply, v49_apply, v51_apply, v53_apply, Ideal.addf_def, Ideal.addf_def,
    Cert.Sage.Rlogit]

/-! ## The softmax -/

/-- The maximum of a row of logits: the fold of max over the sixteen columns from the float word of minus infinity. -/
theorem v55_apply (n : Fin 50000) :
    val_main_v55 (F := Ideal) x ei W1l b1 W1r W2l b2 W2r (ix1 n)
      = Cert.Sage.rowmax (Cert.Sage.Rlogit (src ei) (dst ei) (deg ei) x W1l b1 W1r W2l b2 W2r n) := by
  have h : S50000x16.Reduces [1] S50000 := by decide
  have e : (fun k : Fin 16 => val_main_v54 (F := Ideal) x ei W1l b1 W1r W2l b2 W2r (ix2 n k))
      = Cert.Sage.Rlogit (src ei) (dst ei) (deg ei) x W1l b1 W1r W2l b2 W2r n :=
    funext fun k => v54_apply x ei W1l b1 W1r W2l b2 W2r n k
  rw [val_main_v55, hostReduce_max_row Facts₀.reducesTo_S50000x16_S50000_d1 h, e, val_main_cst_10_apply, Ideal.ofBits_def,
    Cert.Sage.rowmax]

/-- Taking the maximum with minus infinity's word once more changes nothing: a fold of max is at least its start. -/
theorem v57_apply (n : Fin 50000) :
    val_main_v57 (F := Ideal) x ei W1l b1 W1r W2l b2 W2r (ix1 n)
      = Cert.Sage.rowmax (Cert.Sage.Rlogit (src ei) (dst ei) (deg ei) x W1l b1 W1r W2l b2 W2r n) := by
  rw [val_main_v57_apply, val_main_v56_apply, val_main_cst_11_apply, v55_apply, Ideal.maximumf_def, Ideal.ofBits_def,
    Cert.Sage.rowmax]
  exact max_eq_right ((Finset.le_fold_max _).mpr (Or.inl le_rfl))

/-- The row maximum set beside the sixteen columns. -/
theorem v59_apply (n : Fin 50000) (j : Fin 16) :
    val_main_v59 (F := Ideal) x ei W1l b1 W1r W2l b2 W2r (ix2 n j)
      = Cert.Sage.rowmax (Cert.Sage.Rlogit (src ei) (dst ei) (deg ei) x W1l b1 W1r W2l b2 W2r n) := by
  rw [val_main_v59_apply, val_main_v58_apply]
  have e : idx_main_v58 (idx_main_v59 (ix2 n j)) = ix1 n :=
    funext fun a => Fin.ext (by match a with | ⟨0, _⟩ => rfl)
  rw [e, v57_apply]

/-- The exponential of a logit less its row's maximum. -/
theorem v61_apply (n : Fin 50000) (j : Fin 16) :
    val_main_v61 (F := Ideal) x ei W1l b1 W1r W2l b2 W2r (ix2 n j)
      = Ideal.exp (Cert.Sage.Rlogit (src ei) (dst ei) (deg ei) x W1l b1 W1r W2l b2 W2r n j
          - Cert.Sage.rowmax (Cert.Sage.Rlogit (src ei) (dst ei) (deg ei) x W1l b1 W1r W2l b2 W2r n)) := by
  rw [val_main_v61_apply, val_main_v60_apply, v54_apply, v59_apply, Ideal.hostUnary_exp_def, Ideal.subf_def]

/-- The sum of a row of exponentials. -/
theorem v62_apply (n : Fin 50000) :
    val_main_v62 (F := Ideal) x ei W1l b1 W1r W2l b2 W2r (ix1 n)
      = ∑ j' : Fin 16, Ideal.exp (Cert.Sage.Rlogit (src ei) (dst ei) (deg ei) x W1l b1 W1r W2l b2 W2r n j'
          - Cert.Sage.rowmax (Cert.Sage.Rlogit (src ei) (dst ei) (deg ei) x W1l b1 W1r W2l b2 W2r n)) := by
  rw [val_main_v62_apply, val_main_cst_12_apply, Ideal.ofBits_def, Ideal.ofBits_zero_f32, zero_add]
  refine Finset.sum_congr rfl fun k _ => ?_
  have e : idx_main_v62 (ix1 n) k = ix2 n k :=
    funext fun a => Fin.ext (by match a with | ⟨0, _⟩ => rfl | ⟨1, _⟩ => rfl)
  rw [e, v61_apply]

/-- The row's sum set beside the sixteen columns. -/
theorem v64_apply (n : Fin 50000) (j : Fin 16) :
    val_main_v64 (F := Ideal) x ei W1l b1 W1r W2l b2 W2r (ix2 n j)
      = ∑ j' : Fin 16, Ideal.exp (Cert.Sage.Rlogit (src ei) (dst ei) (deg ei) x W1l b1 W1r W2l b2 W2r n j'
          - Cert.Sage.rowmax (Cert.Sage.Rlogit (src ei) (dst ei) (deg ei) x W1l b1 W1r W2l b2 W2r n)) := by
  rw [val_main_v64_apply, val_main_v63_apply]
  have e : idx_main_v63 (idx_main_v64 (ix2 n j)) = ix1 n :=
    funext fun a => Fin.ext (by match a with | ⟨0, _⟩ => rfl)
  rw [e, v62_apply]

/-- The reference's result at node n, class j, is the softmax of the mean-first logits. -/
theorem result_apply (n : Fin 50000) (j : Fin 16) :
    Read.val_main_v65 (F := Ideal) x ei W1l b1 W1r W2l b2 W2r (ix2 n j)
      = Cert.Sage.Rout (src ei) (dst ei) (deg ei) x W1l b1 W1r W2l b2 W2r n j := by
  rw [val_main_v65_apply, v61_apply, v64_apply, Ideal.hostDivf_def, Cert.Sage.Rout, Cert.Sage.softmax]

end Stages

end Cert.ReferenceIdeal.RefValue

end
-- ==== Proof.Cross.lean ====
/-
  The two programs form the same index columns and the same degree from the edge array.

  Both read row 0 of the edge array as the source indices and row 1 as the target indices (a slice of one row, viewed
  as a vector). Both wrap a negative source index by adding the node count 50000, and set the wrapped sources, and
  the targets, as columns. Both form the in-degree as the scatter by addition, into a vector of zeros, of a vector of
  ones at the target column, and clip it below by 1. The two texts spell these with the same operations in the same
  order on the same literal shapes; they differ only in where each text declares its shapes, its shape relations and
  its scatter record, and two such declarations with the same contents are the same thing.
-/
import proofs.«141838_j8426725835327_2_alg».proof.Proof.KHost
import proofs.«141838_j8426725835327_2_alg».proof.Proof.Gen.ReferenceIdeal.Read

set_option maxRecDepth 16384

noncomputable section

namespace Cert.Cross

open Idealize.ShloMosaic

/-- Row 0 of the edge array, as a vector: the same in both programs. -/
theorem row0_eq (ei : IVec Cert.KernelIdeal.S2x800000 32) :
    Cert.ReferenceIdeal.Read.val_main_v1 (F := Ideal) ei = Cert.KernelIdeal.KHost.edgeRow0 ei := by
  unfold Cert.ReferenceIdeal.Read.val_main_v1 Cert.ReferenceIdeal.Read.val_main_v0 Cert.KernelIdeal.KHost.edgeRow0
  rfl

/-- Row 1 of the edge array, as a vector: the same in both programs. -/
theorem row1_eq (ei : IVec Cert.KernelIdeal.S2x800000 32) :
    Cert.ReferenceIdeal.Read.val_main_v3 (F := Ideal) ei = Cert.KernelIdeal.KHost.edgeRow1 ei := by
  unfold Cert.ReferenceIdeal.Read.val_main_v3 Cert.ReferenceIdeal.Read.val_main_v2 Cert.KernelIdeal.KHost.edgeRow1
  rfl

/-- The wrapped source column: the same in both programs. -/
theorem src_eq (ei : IVec Cert.KernelIdeal.S2x800000 32) :
    Cert.ReferenceIdeal.Read.val_main_v9 (F := Ideal) ei
      = Cert.KernelIdeal.KHost.srcCol (Cert.KernelIdeal.KHost.edgeRow0 ei) := by
  unfold Cert.ReferenceIdeal.Read.val_main_v9 Cert.ReferenceIdeal.Read.val_main_v8 Cert.ReferenceIdeal.Read.val_main_v7
    Cert.ReferenceIdeal.Read.val_main_v6 Cert.ReferenceIdeal.Read.val_main_c_0 Cert.ReferenceIdeal.Read.val_main_v5
    Cert.ReferenceIdeal.Read.val_main_v4 Cert.ReferenceIdeal.Read.val_main_c
  rw [row0_eq]
  generalize Cert.KernelIdeal.KHost.edgeRow0 ei = s
  unfold Cert.KernelIdeal.KHost.srcCol
  rfl

/-- The target column: the same in both programs. -/
theorem dst_eq (ei : IVec Cert.KernelIdeal.S2x800000 32) :
    Cert.ReferenceIdeal.Read.val_main_v12 (F := Ideal) ei
      = Cert.KernelIdeal.KHost.dstCol (Cert.KernelIdeal.KHost.edgeRow1 ei) := by
  unfold Cert.ReferenceIdeal.Read.val_main_v12
  rw [row1_eq]
  generalize Cert.KernelIdeal.KHost.edgeRow1 ei = d
  unfold Cert.KernelIdeal.KHost.dstCol
  rfl

/-- The clipped in-degree: the same in both programs. -/
theorem deg_eq (ei : IVec Cert.KernelIdeal.S2x800000 32) :
    Cert.ReferenceIdeal.Read.val_main_v19 (F := Ideal) ei
      = Cert.KernelIdeal.KHost.degVec (Cert.KernelIdeal.KHost.edgeRow1 ei) := by
  unfold Cert.ReferenceIdeal.Read.val_main_v19 Cert.ReferenceIdeal.Read.val_main_v18 Cert.ReferenceIdeal.Read.val_main_cst_3
    Cert.ReferenceIdeal.Read.val_main_v17 Cert.ReferenceIdeal.Read.val_main_v16 Cert.ReferenceIdeal.Read.val_main_v15
    Cert.ReferenceIdeal.Read.val_main_cst_2 Cert.ReferenceIdeal.Read.val_main_v14 Cert.ReferenceIdeal.Read.val_main_cst_1
  rw [row1_eq]
  generalize Cert.KernelIdeal.KHost.edgeRow1 ei = d
  unfold Cert.KernelIdeal.KHost.degVec Cert.KernelIdeal.KHost.dstCol
  rfl

end Cert.Cross

end
-- ==== Proof.FiniteInputs.lean ====
/-
  From the precondition to "every float input is a real number".

  The precondition is the conjunction, over the seven float arguments a, of all(|a| < +∞): each conjunct is a reduction
  by "and", over every axis, of the array of bits |a i| < +∞, started from the bit 1, and the conjunction is the "and" of
  the seven resulting bits. The precondition says that bit is 1. A conjunction of bits is 1 exactly when each of them is;
  a reduction by "and" into one cell is 1 only if every bit reduced is 1; so |a i| < +∞ at every index i of every float
  argument. On the extended reals |x| is max x (-x), the bound is the value the pattern 0x7F800000 denotes, which is +∞, and
  max x (-x) < +∞ excludes both x = +∞ and x = -∞ (there -x = +∞): what is left is a real number.
-/
import Idealize.ShloMosaic.Lib.ValueIdx
import Idealize.ShloMosaic.Lib.ReduceAll
import Idealize.ShloMosaic.PureOps.Ideal.Laws
import proofs.«141838_j8426725835327_2_alg».proof.Pre_finite_inputs

noncomputable section

namespace Cert.FiniteInputs

open Cert.Pre_finite_inputs Idealize.ShloMosaic

variable [Cert.Pre_finite_inputs.Facts]

/-- The shape of a single cell has one index. -/
instance : Subsingleton S_.Idx := ⟨fun a b => funext fun d => d.elim0⟩

/-- The bit of a Boolean is 1 exactly when the Boolean is true. -/
theorem ofBool_eq_one (b : Bool) : BitVec.ofBool b = 1#1 ↔ b = true := by cases b <;> decide

/-- The 32-bit pattern 0x7F800000 (sign 0, exponent all ones, significand 0) denotes +∞. -/
theorem inf_bits : Ideal.ofBits .f32 0x7F800000#32 = (⊤ : EReal) := by
  simp [Ideal.ofBits, Ideal.ieee]

/-- An extended real x with max x (-x) < +∞ is a real number: at x = +∞ the maximum is x, at x = -∞ it is -x = +∞. -/
theorem real_of_abs_lt_top (x : EReal) (h : max x (-x) < ⊤) : ∃ r : ℝ, x = (r : EReal) := by
  induction x using EReal.rec with
  | bot => simp at h
  | coe r => exact ⟨r, rfl⟩
  | top => simp at h

/-- The same, with the comparison as the bit the ordered "less than" answers against the pattern of +∞. -/
theorem real_of_cmp (x : EReal) (h : Ideal.cmp .olt (max x (-x)) (Ideal.ofBits .f32 0x7F800000#32) = 1#1) :
    ∃ r : ℝ, x = (r : EReal) := by
  rw [inf_bits] at h
  unfold Ideal.cmp at h
  rw [ofBool_eq_one] at h
  exact real_of_abs_lt_top x (of_decide_eq_true h)

/-- all(|a| < +∞) = 1 gives a real number at every index, for an array a of any shape s, reduced over any list of axes
    that leaves one cell. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1) :
    ∀ i, ∃ r : ℝ, a i = (r : EReal) := by
  intro i
  have h := Host.reduce_andi_all _ _ hr hu ValueIdx.ix0 e i
  exact real_of_cmp (a i) h

/-- THE PRECONDITION DECODED: each of the seven float arguments holds a real number at every index. -/
theorem of_fn (a0 : FVec Ideal S50000x96 .f32) (a1 : IVec S2x800000 32) (a2 : FVec Ideal S96x128 .f32)
    (a3 : FVec Ideal S128 .f32) (a4 : FVec Ideal S96x128 .f32) (a5 : FVec Ideal S128x16 .f32) (a6 : FVec Ideal S16 .f32)
    (a7 : FVec Ideal S128x16 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧ (∀ i, ∃ r : ℝ, a6 i = (r : EReal)) ∧
    (∀ i, ∃ r : ℝ, a7 i = (r : EReal)) := by
  have e := congrFun h ValueIdx.ix0
  dsimp only [Cert.Pre_finite_inputs.fn, Cert.Pre_finite_inputs.fn_part1, andi] at e
  simp only [IntOp.andi_eq_one] at e
  obtain ⟨⟨⟨⟨⟨⟨h0, h2⟩, h3⟩, h4⟩, h5⟩, h6⟩, h7⟩ := e
  exact ⟨all_real a0 _ _ _ h0, all_real a2 _ _ _ h2, all_real a3 _ _ _ h3, all_real a4 _ _ _ h4,
    all_real a5 _ _ _ h5, all_real a6 _ _ _ h6, all_real a7 _ _ _ h7⟩

end Cert.FiniteInputs

end
-- ==== Proof.Law.lean ====
/-
  The algebra that joins the two forms of the layers (Spec): on the extended reals
  • multiplying by 1 / d is dividing by d, for a nonzero real d — so the two forms of layer 1 agree everywhere;
  • for REAL hidden rows h and a real weight column w,
        (∑ e, ∑ k, h e k * w k) * (1 / d)  =  ∑ k, ((∑ e, h e k) / d) * w k :
    the mean over the edges commutes with the product by the weight (both sides are one real double sum);
  • real entries stay real through sums, products, the maximum with 0 and the quotient by a nonzero real — so the
    hidden rows of layer 1 are real when the inputs are.
-/
import proofs.«141838_j8426725835327_2_alg».proof.Proof.Spec

noncomputable section

open scoped BigOperators

namespace Cert.Sage

open Idealize.ShloMosaic Idealize.ShloMosaic.ValueIdx Idealize.ShloMosaic.RowTake

/-- An extended real that is a real number. -/
def IsReal (x : EReal) : Prop := ∃ r : ℝ, x = (r : EReal)

/-- The coercion of a finite real sum is the sum of the coercions. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsReal.zero : IsReal 0 := ⟨0, by simp⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

theorem IsReal.div {x : EReal} (hx : IsReal x) {d : ℝ} (hd : d ≠ 0) : IsReal (Ideal.div x (d : EReal)) := by
  rw [Ideal.div_coe hd]; exact hx.mul ⟨_, rfl⟩

/-- Multiplying by the quotient 1 / d is dividing by d, at every extended real, for a nonzero real d. -/
theorem mul_one_div (x : EReal) {d : ℝ} (hd : d ≠ 0) : x * Ideal.div 1 (d : EReal) = Ideal.div x (d : EReal) := by
  rw [Ideal.div_coe hd, Ideal.div_coe hd, one_mul]

/-- The mean over a finite family of real rows commutes with the product by a real column. -/
theorem mean_proj {ι κ : Type*} [Fintype κ] (S : Finset ι) (h : ι → κ → EReal) (w : κ → EReal) {d : ℝ} (hd : d ≠ 0)
    (hh : ∀ e k, IsReal (h e k)) (hw : ∀ k, IsReal (w k)) :
    (∑ e ∈ S, ∑ k, h e k * w k) * Ideal.div 1 (d : EReal) = ∑ k, Ideal.div (∑ e ∈ S, h e k) (d : EReal) * w k := by
  choose hr hhr using hh
  choose wr hwr using hw
  simp only [hhr, hwr, Ideal.div_coe hd, one_mul, ← EReal.coe_mul, coe_sum]
  refine congrArg _ ?_
  simp only [Finset.sum_mul]
  rw [Finset.sum_comm]
  exact Finset.sum_congr rfl fun k _ => Finset.sum_congr rfl fun e _ => by ring

section Layers

variable (src dst : IVec EIdx 32) (D : Fin 50000 → EReal)
  (x : (⟨2, ![50000, 96]⟩ : Shape).Idx → EReal)
  (W1l : (⟨2, ![96, 128]⟩ : Shape).Idx → EReal) (b1 : (⟨1, ![128]⟩ : Shape).Idx → EReal)
  (W1r : (⟨2, ![96, 128]⟩ : Shape).Idx → EReal)
  (W2l : (⟨2, ![128, 16]⟩ : Shape).Idx → EReal) (b2 : (⟨1, ![16]⟩ : Shape).Idx → EReal)
  (W2r : (⟨2, ![128, 16]⟩ : Shape).Idx → EReal)

/-- Layer 1: the two forms agree once every D n is a nonzero real. -/
theorem Khid_eq_Rhid (hD : ∀ n, ∃ d : ℝ, d ≠ 0 ∧ D n = (d : EReal)) :
    Khid src dst D x W1l b1 W1r = Rhid src dst D x W1l b1 W1r := by
  funext n k
  obtain ⟨d, hd, hDn⟩ := hD n
  unfold Khid Rhid
  simp only [hDn, mul_one_div _ hd]
  rw [add_right_comm]

/-- Layer 1 is real when its inputs are. -/
theorem Rhid_real (hD : ∀ n, ∃ d : ℝ, d ≠ 0 ∧ D n = (d : EReal)) (hx : ∀ i, IsReal (x i)) (hW1l : ∀ i, IsReal (W1l i))
    (hb1 : ∀ i, IsReal (b1 i)) (hW1r : ∀ i, IsReal (W1r i)) (n : Fin 50000) (k : Fin 128) :
    IsReal (Rhid src dst D x W1l b1 W1r n k) := by
  obtain ⟨d, hd, hDn⟩ := hD n
  unfold Rhid agg1 seg
  rw [hDn]
  exact IsReal.max
    (((IsReal.sum _ _ fun i _ => ((IsReal.sum _ _ fun e _ => hx _).div hd).mul (hW1l _)).add (hb1 _)).add
      (IsReal.sum _ _ fun i _ => (hx _).mul (hW1r _)))
    IsReal.zero

/-- Layer 2: the two forms agree when D is a nonzero real at every node and the inputs of layer 1 and W2l are real. -/
theorem Klogit_eq_Rlogit (hD : ∀ n, ∃ d : ℝ, d ≠ 0 ∧ D n = (d : EReal)) (hx : ∀ i, IsReal (x i))
    (hW1l : ∀ i, IsReal (W1l i)) (hb1 : ∀ i, IsReal (b1 i)) (hW1r : ∀ i, IsReal (W1r i)) (hW2l : ∀ i, IsReal (W2l i))
    (n : Fin 50000) (j : Fin 16) :
    Klogit src dst D x W1l b1 W1r W2l b2 W2r n j = Rlogit src dst D x W1l b1 W1r W2l b2 W2r n j := by
  obtain ⟨d, hd, hDn⟩ := hD n
  unfold Klogit Rlogit Kproj
  rw [Khid_eq_Rhid src dst D x W1l b1 W1r hD]
  unfold seg
  rw [hDn, mean_proj (into dst n) (fun e k => Rhid src dst D x W1l b1 W1r (srcRow src e) k) (fun k => W2l (ix2 k j)) hd
    (fun e k => Rhid_real src dst D x W1l b1 W1r hD hx hW1l hb1 hW1r _ _) (fun k => hW2l _)]

/-- The outputs agree. -/
theorem Kout_eq_Rout (hD : ∀ n, ∃ d : ℝ, d ≠ 0 ∧ D n = (d : EReal)) (hx : ∀ i, IsReal (x i))
    (hW1l : ∀ i, IsReal (W1l i)) (hb1 : ∀ i, IsReal (b1 i)) (hW1r : ∀ i, IsReal (W1r i)) (hW2l : ∀ i, IsReal (W2l i))
    (n : Fin 50000) (j : Fin 16) :
    Kout src dst D x W1l b1 W1r W2l b2 W2r n j = Rout src dst D x W1l b1 W1r W2l b2 W2r n j := by
  unfold Kout Rout
  exact congrArg (fun z => softmax z j)
    (funext fun j' => Klogit_eq_Rlogit src dst D x W1l b1 W1r W2l b2 W2r hD hx hW1l hb1 hW1r hW2l n j')

end Layers

end Cert.Sage

end
-- ==== Proof.lean ====
/-
  The claim: a two-layer mean-aggregating graph convolution with a row softmax, computed by two kernel regions
  among host gathers and segment sums, against its plain reference, over the extended reals.

  The three frames are the generated ones (the reference's is its generated run with the result dropped); the
  idealization rewrote nothing. For the algebraic claim the common result is what the kernel's run leaves in its
  result array. On the kernel's side that array is read back through the two regions and the two host stretches as the
  specification's factor-last form (the per-node factor 1 / degree applied after the segment sums, the hidden rows
  projected by the second left weight BEFORE the second segment sum); the reference's run, read one operation at a
  time, is the mean-first form. The two forms agree because every float input is a real number (the precondition) and
  the clipped in-degree is a nonzero real: the mean over the edges into a node commutes with the product by a weight
  column, both being one finite real double sum; the softmax is then applied to equal rows.
-/
import proofs.«141838_j8426725835327_2_alg».proof.Defs
import proofs.«141838_j8426725835327_2_alg».proof.Proof.Gen.Kernel
import proofs.«141838_j8426725835327_2_alg».proof.Proof.Gen.Kernel.Skeleton
import proofs.«141838_j8426725835327_2_alg».proof.Proof.Gen.Kernel.Launch
import proofs.«141838_j8426725835327_2_alg».proof.Proof.Gen.Kernel.Points
import proofs.«141838_j8426725835327_2_alg».proof.Proof.Gen.Kernel.Frame
import proofs.«141838_j8426725835327_2_alg».proof.Proof.Gen.KernelIdeal
import proofs.«141838_j8426725835327_2_alg».proof.Proof.Gen.KernelIdeal.Skeleton
import proofs.«141838_j8426725835327_2_alg».proof.Proof.Gen.KernelIdeal.Launch
import proofs.«141838_j8426725835327_2_alg».proof.Proof.Gen.KernelIdeal.Points
import proofs.«141838_j8426725835327_2_alg».proof.Proof.Gen.KernelIdeal.Frame
import proofs.«141838_j8426725835327_2_alg».proof.Proof.Gen.ReferenceIdeal
import proofs.«141838_j8426725835327_2_alg».proof.Proof.Gen.ReferenceIdeal.Run
import proofs.«141838_j8426725835327_2_alg».proof.Proof.Gen.ReferenceIdeal.Read
import proofs.«141838_j8426725835327_2_alg».proof.Proof.Gen.Pre_finite_inputs
import proofs.«141838_j8426725835327_2_alg».proof.Proof.KValue
import proofs.«141838_j8426725835327_2_alg».proof.Proof.RefValue
import proofs.«141838_j8426725835327_2_alg».proof.Proof.Cross
import proofs.«141838_j8426725835327_2_alg».proof.Proof.FiniteInputs
import proofs.«141838_j8426725835327_2_alg».proof.Proof.Law
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal.KHost Cert.KernelIdeal.KGlue in
/-- Both runs end with the result array at one function of the arguments: the kernel's at the factor-last form, the
    reference's at the mean-first form, equal on real inputs. -/
theorem algebraic : Cert.algebraic_KernelIdeal_ReferenceIdeal := by
  intro m ρ m' ρ' hpre hagree
  refine ⟨fun c => Cert.KernelIdeal.Gen.W4 m ρ c (Proc.devRef .tc Cert.KernelIdeal.main_v34),
    Cert.KernelIdeal.KRun.run_result (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6, a7⟩ := hagree c
  obtain ⟨hx, hW1l, hb1, hW1r, hW2l, hb2, hW2r⟩ := Cert.FiniteInputs.of_fn _ _ _ _ _ _ _ _ (hpre c)
  rw [Cert.ReferenceIdeal.Read.val_main_v65_eq, a0, a1, a2, a3, a4, a5, a6, a7]
  beta_reduce
  rw [Cert.KernelIdeal.KValue.result_eq]
  funext i
  obtain ⟨n, j, rfl⟩ : ∃ (n : Fin 50000) (j : Fin 16), i = ix2 n j := ⟨i 0, i 1, eq_ix2 i⟩
  have hdeg : Cert.ReferenceIdeal.RefValue.deg (m ((c.tc : Thread Cert.KernelIdeal.nD Cert.KernelIdeal.τ).loc Cert.KernelIdeal.main_arg1))
      = Dk (edgeRow1 (m ((c.tc : Thread Cert.KernelIdeal.nD Cert.KernelIdeal.τ).loc Cert.KernelIdeal.main_arg1))) :=
    funext fun n => by rw [Cert.ReferenceIdeal.RefValue.deg, Cert.Cross.deg_eq, Dk]
  rw [Cert.ReferenceIdeal.RefValue.result_apply, Cert.KernelIdeal.KValue.out, Cert.Sage.ofRC_ix2,
    Cert.ReferenceIdeal.RefValue.src, Cert.ReferenceIdeal.RefValue.dst, Cert.Cross.src_eq, Cert.Cross.dst_eq, hdeg,
    Cert.Sage.Kout_eq_Rout _ _ _ _ _ _ _ _ _ _ (fun n => Dk_real _ n) hx hW1l hb1 hW1r hW2l]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
